-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1386 : Shape := ⟨2, ![8192, 1386]⟩
abbrev S1386x4096 : Shape := ⟨2, ![1386, 4096]⟩
abbrev S4096 : Shape := ⟨1, ![4096]⟩
abbrev S4096x64 : Shape := ⟨2, ![4096, 64]⟩
abbrev S64 : Shape := ⟨1, ![64]⟩
abbrev S2x262144 : Shape := ⟨2, ![2, 262144]⟩
abbrev S_ : Shape := ⟨0, ![]⟩

class Facts : Prop where
  bcast_S_S8192x1386 : S_.BroadcastsInDim S8192x1386 (![] : Fin 0 → Fin S8192x1386.rank)
  reducesTo_S8192x1386_S_d0_1 : S8192x1386.ReducesTo [0, 1] S_
  h_S_ : 0 < S_.numel
  bcast_S_S1386x4096 : S_.BroadcastsInDim S1386x4096 (![] : Fin 0 → Fin S1386x4096.rank)
  reducesTo_S1386x4096_S_d0_1 : S1386x4096.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x1386 .f32) (main_arg1 : FVec F S1386x4096 .f32) (main_arg2 : FVec F S4096 .f32) (main_arg3 : FVec F S4096x64 .f32) (main_arg4 : FVec F S64 .f32) (main_arg5 : IVec S2x262144 32) : IVec S_ 1 :=
  let main_v0 : FVec F S8192x1386 .f32 := Host.absf main_arg0
  let main_cst : FVec F S_ .f32 := constant S_ .f32 0x7F800000#32
  let main_v1 : FVec F S8192x1386 .f32 := broadcastInDim S8192x1386 ![] bcast_S_S8192x1386 main_cst
  let main_v2 : IVec S8192x1386 1 := cmpf .olt main_v0 main_v1
  let main_c : IVec S_ 1 := constantI S_ 1 1#1
  let main_v3 : IVec S_ 1 := (fun x v => Host.reduce IntOp.andi x v reducesTo_S8192x1386_S_d0_1 h_S_) main_v2 main_c
  let main_v4 : FVec F S1386x4096 .f32 := Host.absf main_arg1
  let main_cst_0 : FVec F S_ .f32 := constant S_ .f32 0x7F800000#32
  let main_v5 : FVec F S1386x4096 .f32 := broadcastInDim S1386x4096 ![] bcast_S_S1386x4096 main_cst_0
  let main_v6 : IVec S1386x4096 1 := cmpf .olt main_v4 main_v5
  let main_c_1 : IVec S_ 1 := constantI S_ 1 1#1
  let main_v7 : IVec S_ 1 := (fun x v => Host.reduce IntOp.andi x v reducesTo_S1386x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_v13 main_v16
-- ==== Kernel.lean ====
abbrev S8192x1386 : Shape := ⟨2, ![8192, 1386]⟩
abbrev S1386x4096 : Shape := ⟨2, ![1386, 4096]⟩
abbrev S4096 : Shape := ⟨1, ![4096]⟩
abbrev S4096x64 : Shape := ⟨2, ![4096, 64]⟩
abbrev S64 : Shape := ⟨1, ![64]⟩
abbrev S2x262144 : Shape := ⟨2, ![2, 262144]⟩
abbrev S8192x4096 : Shape := ⟨2, ![8192, 4096]⟩
abbrev S8192x64 : Shape := ⟨2, ![8192, 64]⟩
abbrev S256x1386 : Shape := ⟨2, ![256, 1386]⟩
abbrev S256x4096 : Shape := ⟨2, ![256, 4096]⟩
abbrev S256x64 : Shape := ⟨2, ![256, 64]⟩
abbrev S1x4096 : Shape := ⟨2, ![1, 4096]⟩
abbrev S1x262144 : Shape := ⟨2, ![1, 262144]⟩
abbrev S262144 : Shape := ⟨1, ![262144]⟩
abbrev S_ : Shape := ⟨0, ![]⟩
abbrev S8192 : Shape := ⟨1, ![8192]⟩
abbrev S262144x1 : Shape := ⟨2, ![262144, 1]⟩
abbrev S262144x64 : Shape := ⟨2, ![262144, 64]⟩
abbrev S8192x1 : Shape := ⟨2, ![8192, 1]⟩
abbrev S1x64 : Shape := ⟨2, ![1, 64]⟩

abbrev nBuf : Space → Nat
  | .hbm => 80
  | .vmem => 9
  | .smem => 0
  | _ => 0

abbrev bufTy : (tb : Table) → Fin (tcTables nBuf tb) → BufTy
  | .hbm, ⟨0, _⟩ => ⟨S8192x1386, .f32⟩
  | .hbm, ⟨1, _⟩ => ⟨S1386x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S2x262144, .i32⟩
  | .hbm, ⟨6, _⟩ => ⟨S1386x4096, .bf16⟩
  | .hbm, ⟨7, _⟩ => ⟨S4096x64, .bf16⟩
  | .hbm, ⟨8, _⟩ => ⟨S8192x4096, .f32⟩
  | .hbm, ⟨9, _⟩ => ⟨S8192x64, .f32⟩
  | .hbm, ⟨10, _⟩ => ⟨S1x262144, .i32⟩
  | .hbm, ⟨11, _⟩ => ⟨S262144, .i32⟩
  | .hbm, ⟨12, _⟩ => ⟨S1x262144, .i32⟩
  | .hbm, ⟨13, _⟩ => ⟨S262144, .i32⟩
  | .hbm, ⟨14, _⟩ => ⟨S_, .f32⟩
  | .hbm, ⟨15, _⟩ => ⟨S262144, .f32⟩
  | .hbm, ⟨16, _⟩ => ⟨S_, .f32⟩
  | .hbm, ⟨17, _⟩ => ⟨S8192, .f32⟩
  | .hbm, ⟨18, _⟩ => ⟨S262144x1, .i32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .i1⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S262144x1, .i32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .i1⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S262144, .i32⟩
  | .hbm, ⟨51, _⟩ => ⟨S262144x1, .i32⟩
  | .hbm, ⟨52, _⟩ => ⟨S262144x64, .f32⟩
  | .hbm, ⟨53, _⟩ => ⟨S_, .f32⟩
  | .hbm, ⟨54, _⟩ => ⟨S8192x64, .f32⟩
  | .hbm, ⟨55, _⟩ => ⟨S262144x1, .i32⟩
  | .hbm, ⟨56, _⟩ => ⟨S8192x64, .f32⟩
  | .hbm, ⟨57, _⟩ => ⟨S8192x1, .f32⟩
  | .hbm, ⟨58, _⟩ => ⟨S8192x64, .f32⟩
  | .hbm, ⟨59, _⟩ => ⟨S8192x64, .f32⟩
  | .hbm, ⟨60, _⟩ => ⟨S_, .i32⟩
  | .hbm, ⟨61, _⟩ => ⟨S262144, .i32⟩
  | .hbm, ⟨62, _⟩ => ⟨S262144, .i1⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S262144, .i32⟩
  | .hbm, ⟨67, _⟩ => ⟨S262144x1, .i32⟩
  | .hbm, ⟨68, _⟩ => ⟨S262144x64, .f32⟩
  | .hbm, ⟨69, _⟩ => ⟨S_, .f32⟩
  | .hbm, ⟨70, _⟩ => ⟨S8192x64, .f32⟩
  | .hbm, ⟨71, _⟩ => ⟨S262144x1, .i32⟩
  | .hbm, ⟨72, _⟩ => ⟨S8192x64, .f32⟩
  | .hbm, ⟨73, _⟩ => ⟨S8192x1, .f32⟩
  | .hbm, ⟨74, _⟩ => ⟨S8192x64, .f32⟩
  | .hbm, ⟨75, _⟩ => ⟨S8192x64, .f32⟩
  | .hbm, ⟨76, _⟩ => ⟨S1x64, .f32⟩
  | .hbm, ⟨77, _⟩ => ⟨S8192x64, .f32⟩
  | .hbm, ⟨78, _⟩ => ⟨S8192x64, .f32⟩
  | .hbm, ⟨79, _⟩ => ⟨S8192x64, .f32⟩
  | .local _ .vmem, ⟨0, _⟩ => ⟨S256x1386, .f32⟩
  | .local _ .vmem, ⟨1, _⟩ => ⟨S256x1386, .f32⟩
  | .local _ .vmem, ⟨2, _⟩ => ⟨S1386x4096, .bf16⟩
  | .local _ .vmem, ⟨3, _⟩ => ⟨S4096, .f32⟩
  | .local _ .vmem, ⟨4, _⟩ => ⟨S4096x64, .bf16⟩
  | .local _ .vmem, ⟨5, _⟩ => ⟨S256x4096, .f32⟩
  | .local _ .vmem, ⟨6, _⟩ => ⟨S256x4096, .f32⟩
  | .local _ .vmem, ⟨7, _⟩ => ⟨S256x64, .f32⟩
  | .local _ .vmem, ⟨8, _⟩ => ⟨S256x64, .f32⟩
  | _, _ => ⟨S8192x1386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1386x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S256x1386_S256x1386_0_0 : ∀ a, (![0, 0] : Fin 2 → Nat) a + S256x1386.size a ≤ S256x1386.size a
  h_S256x1386 : 0 < S256x1386.numel
  inb_S1386x4096_S1386x4096_0_0 : ∀ a, (![0, 0] : Fin 2 → Nat) a + S1386x4096.size a ≤ S1386x4096.size a
  h_S1386x4096 : 0 < S1386x4096.numel
  shapeCasts_S1386x4096_S1386x4096 : S1386x4096.ShapeCasts S1386x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S256x64_S256x64_0_0 : ∀ a, (![0, 0] : Fin 2 → Nat) a + S256x64.size a ≤ S256x64.size a
  h_S256x64 : 0 < S256x64.numel
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S_S8192x64 : S_.BroadcastsInDim S8192x64 (![] : Fin 0 → Fin S8192x64.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S256x1386_S1386x4096_S256x4096_1_0_0_1_n_n_wf : DotDims.WF S256x1386 S1386x4096 S256x4096 [1] [0] [0] [1] [] []
  dot_S256x4096_S4096x64_S256x64_1_0_0_1_n_n_wf : DotDims.WF S256x4096 S4096x64 S256x64 [1] [0] [0] [1] [] []
  scatter_S8192_S262144x1_S262144_n_0_0_1_wf : ScatterDims.WF S8192 S262144x1 S262144 [] [0] [0] 1
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1386.size a ≤ S8192x1386.size a
  hwx0_0 : ∀ i : grid0.Coords, EltTy.bits .f32 = 32 ∨ (Rect.block (s := S8192x1386) S256x1386.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1386x4096.size a ≤ S1386x4096.size a
  hwx0_1 : ∀ i : grid0.Coords, EltTy.bits .bf16 = 32 ∨ (Rect.block (s := S1386x4096) S1386x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .bf16 = 32 ∨ (Rect.block (s := S4096x64) S4096x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S8192x64.size a
  hwx0_5 : ∀ i : grid0.Coords, EltTy.bits .f32 = 32 ∨ (Rect.block (s := S8192x64) S256x64.size (cc0_transform_5 i) (hinb0_5 i)).WholeWords (EltTy.packing .f32)

variable [Facts₀]

def dot_S256x1386_S1386x4096_S256x4096_1_0_0_1_n_n : DotDims S256x1386 S1386x4096 S256x4096 where
  lhsContracting := [1]
  rhsContracting := [0]
  lhsNonContracting := [0]
  rhsNonContracting := [1]
  lhsBatch := []
  rhsBatch := []
  wf := dot_S256x1386_S1386x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf

abbrev win0_0 : Pipeline.Window sig grid0 :=
  Pipeline.Window.ofSpec (Memref.whole main_arg0) S256x1386.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1386x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1386 : Shape := ⟨2, ![8192, 1386]⟩
abbrev S1386x4096 : Shape := ⟨2, ![1386, 4096]⟩
abbrev S4096 : Shape := ⟨1, ![4096]⟩
abbrev S4096x64 : Shape := ⟨2, ![4096, 64]⟩
abbrev S64 : Shape := ⟨1, ![64]⟩
abbrev S2x262144 : Shape := ⟨2, ![2, 262144]⟩
abbrev S8192x4096 : Shape := ⟨2, ![8192, 4096]⟩
abbrev S1x4096 : Shape := ⟨2, ![1, 4096]⟩
abbrev S_ : Shape := ⟨0, ![]⟩
abbrev S8192x64 : Shape := ⟨2, ![8192, 64]⟩
abbrev S1x262144 : Shape := ⟨2, ![1, 262144]⟩
abbrev S262144 : Shape := ⟨1, ![262144]⟩
abbrev S8192 : Shape := ⟨1, ![8192]⟩
abbrev S262144x1 : Shape := ⟨2, ![262144, 1]⟩
abbrev S262144x64 : Shape := ⟨2, ![262144, 64]⟩
abbrev S8192x1 : Shape := ⟨2, ![8192, 1]⟩
abbrev S1x64 : Shape := ⟨2, ![1, 64]⟩

abbrev nBuf : Space → Nat
  | .hbm => 87
  | .vmem => 0
  | .smem => 0
  | _ => 0

abbrev bufTy : (tb : Table) → Fin (tcTables nBuf tb) → BufTy
  | .hbm, ⟨0, _⟩ => ⟨S8192x1386, .f32⟩
  | .hbm, ⟨1, _⟩ => ⟨S1386x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S2x262144, .i32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x64, .f32⟩
  | .hbm, ⟨14, _⟩ => ⟨S1x262144, .i32⟩
  | .hbm, ⟨15, _⟩ => ⟨S262144, .i32⟩
  | .hbm, ⟨16, _⟩ => ⟨S1x262144, .i32⟩
  | .hbm, ⟨17, _⟩ => ⟨S262144, .i32⟩
  | .hbm, ⟨18, _⟩ => ⟨S_, .f32⟩
  | .hbm, ⟨19, _⟩ => ⟨S262144, .f32⟩
  | .hbm, ⟨20, _⟩ => ⟨S_, .f32⟩
  | .hbm, ⟨21, _⟩ => ⟨S8192, .f32⟩
  | .hbm, ⟨22, _⟩ => ⟨S262144x1, .i32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .i1⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S262144x1, .i32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .i1⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x64, .f32⟩
  | .hbm, ⟨57, _⟩ => ⟨S_, .f32⟩
  | .hbm, ⟨58, _⟩ => ⟨S8192x64, .f32⟩
  | .hbm, ⟨59, _⟩ => ⟨S262144x1, .i32⟩
  | .hbm, ⟨60, _⟩ => ⟨S8192x64, .f32⟩
  | .hbm, ⟨61, _⟩ => ⟨S8192x1, .f32⟩
  | .hbm, ⟨62, _⟩ => ⟨S8192x64, .f32⟩
  | .hbm, ⟨63, _⟩ => ⟨S8192x64, .f32⟩
  | .hbm, ⟨64, _⟩ => ⟨S_, .i32⟩
  | .hbm, ⟨65, _⟩ => ⟨S262144, .i32⟩
  | .hbm, ⟨66, _⟩ => ⟨S262144, .i1⟩
  | .hbm, ⟨67, _⟩ => ⟨S_, .i32⟩
  | .hbm, ⟨68, _⟩ => ⟨S262144, .i32⟩
  | .hbm, ⟨69, _⟩ => ⟨S262144, .i32⟩
  | .hbm, ⟨70, _⟩ => ⟨S262144, .i32⟩
  | .hbm, ⟨71, _⟩ => ⟨S262144x1, .i32⟩
  | .hbm, ⟨72, _⟩ => ⟨S262144x64, .f32⟩
  | .hbm, ⟨73, _⟩ => ⟨S_, .f32⟩
  | .hbm, ⟨74, _⟩ => ⟨S8192x64, .f32⟩
  | .hbm, ⟨75, _⟩ => ⟨S262144x1, .i32⟩
  | .hbm, ⟨76, _⟩ => ⟨S8192x64, .f32⟩
  | .hbm, ⟨77, _⟩ => ⟨S8192x1, .f32⟩
  | .hbm, ⟨78, _⟩ => ⟨S8192x64, .f32⟩
  | .hbm, ⟨79, _⟩ => ⟨S8192x64, .f32⟩
  | .hbm, ⟨80, _⟩ => ⟨S1x64, .f32⟩
  | .hbm, ⟨81, _⟩ => ⟨S8192x64, .f32⟩
  | .hbm, ⟨82, _⟩ => ⟨S8192x64, .f32⟩
  | .hbm, ⟨83, _⟩ => ⟨S_, .f32⟩
  | .hbm, ⟨84, _⟩ => ⟨S8192x64, .f32⟩
  | .hbm, ⟨85, _⟩ => ⟨S8192x64, .f32⟩
  | .hbm, ⟨86, _⟩ => ⟨S8192x64, .f32⟩
  | _, _ => ⟨S8192x1386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_call2_v0 : Ref sig .tc := ⟨.hbm, 45, rfl⟩
abbrev main_call2_v1 : Ref sig .tc := ⟨.hbm, 46, rfl⟩
abbrev main_v26 : Ref sig .tc := ⟨.hbm, 47, rfl⟩
abbrev main_c : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S_S8192x64 : S_.BroadcastsInDim S8192x64 (![] : Fin 0 → Fin S8192x64.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x1386_S1386x4096_S8192x4096_1_0_0_1_n_n_wf : DotDims.WF S8192x1386 S1386x4096 S8192x4096 [1] [0] [0] [1] [] []
  dot_S8192x4096_S4096x64_S8192x64_1_0_0_1_n_n_wf : DotDims.WF S8192x4096 S4096x64 S8192x64 [1] [0] [0] [1] [] []
  scatter_S8192_S262144x1_S262144_n_0_0_1_wf : ScatterDims.WF S8192 S262144x1 S262144 [] [0] [0] 1
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1

variable [Facts₀]

def dot_S8192x1386_S1386x4096_S8192x4096_1_0_0_1_n_n : DotDims S8192x1386 S1386x4096 S8192x4096 where
  lhsContracting := [1]
  rhsContracting := [0]
  lhsNonContracting := [0]
  rhsNonContracting := [1]
  lhsBatch := []
  rhsBatch := []
  wf := dot_S8192x1386_S1386x4096_S8192x4096_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf

class Facts : Prop extends Facts₀ where

variable [Facts]
-- ==== Proof.AroundBits.lean ====
/-
  @main around its one region: the two host conversions before the launch, the launch, and the seventy host lines
  after it. What the region finds in each buffer is what the two conversions leave (`V`); the later lines write only
  their own result buffers, so the six argument arrays and the six arrays the pipeline stages are not written by them.
-/
import proofs.«100302_j2611340116407_1_alg».proof.Proof.Gen.Kernel.Launch
import proofs.«100302_j2611340116407_1_alg».proof.Proof.Gen.Kernel.Points
import Idealize.ShloMosaic.Lib.Pipeline.FrameBody
import Idealize.ShloMosaic.Lib.Pipeline.FrameSuffix

set_option maxRecDepth 16384

noncomputable section

namespace Cert.Kernel.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The core's buffer contents when the region is entered: after the two conversions of the weight matrices. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host lines after the region, in order. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The references the later lines write: each line its own result buffer. -/
abbrev tailWrites : List (Ref sig .tc) :=
  [main_v3, main_v4, main_v5, main_v6, main_cst, main_v7, main_cst_0, main_v8, main_v9, main_v10, main_cst_1, main_v11, main_v12, main_cst_2, main_v13, main_v14, main_cst_3, main_call0_v0, main_call0_v1, main_v15, main_cst_4, main_v16, main_v17, main_v18, main_cst_5, main_v19, main_v20, main_cst_6, main_v21, main_v22, main_cst_7, main_call1_v0, main_call1_v1, main_v23, main_c, main_v24, main_v25, main_c_8, main_v26, main_v27, main_v28, main_v29, main_v30, main_cst_9, main_v31, main_v32, main_v33, main_v34, main_v35, main_v36, main_c_10, main_v37, main_v38, main_c_11, main_v39, main_v40, main_v41, main_v42, main_v43, main_cst_12, main_v44, main_v45, main_v46, main_v47, main_v48, main_v49, main_v50, main_v51, main_v52, main_v53]

/-- Every later line writes only a reference of that list. -/
theorem tail_writes_sub : (List.flatten (tailOps : List (List (HloOp τ sig (Elt F))))).Forall fun op =>
    op.writes ⊆ (tailWrites.map (Proc.devRef (τ := τ) .tc)).toFinset := by
  simp only [tailOps, hostOps1, hostOps1_1, hostOps1_2, hostOps1_3, hostOps1_4, List.flatten_cons, List.flatten_nil, List.append_nil,
    List.cons_append, List.nil_append, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A reference no later line writes is, after them, what it was before them. -/
theorem tail_keeps (Vx : Valuation τ sig (Elt F)) {r : Ref sig .tc} (hr : r ∉ tailWrites) :
    StableHlo.after (List.flatten (tailOps : List (List (HloOp τ sig (Elt F))))) Vx (Proc.devRef .tc r) = Vx (Proc.devRef .tc r) :=
  StableHlo.after_of_writes_sub _ Vx tail_writes_sub hr

/-- No later line writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w hmem
  have hop' : op ∈ List.flatten (tailOps : List (List (HloOp τ sig (Elt F)))) := List.mem_flatten.mpr ⟨ops, hops, hop⟩
  obtain ⟨y, hy, he⟩ := List.mem_map.mp (List.mem_toFinset.mp ((List.forall_iff_forall_mem.mp tail_writes_sub) op hop' hmem))
  have : Pipeline.arrRef spec0 w ∈ tailWrites := Proc.devRef_injective _ he ▸ hy
  exact (by decide : ∀ w, Pipeline.arrRef spec0 w ∉ tailWrites) w this

/-- The two conversions write only their own results: every other reference is found as launched. -/
theorem V_of_ne (c : Dev nD) {r : Ref sig .tc} (h0 : r ≠ main_v0) (h1 : r ≠ main_v1) : V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.unary_writes, Finset.mem_singleton]
    exact ⟨StableHlo.devRef_ne_of_ne h0, StableHlo.devRef_ne_of_ne h1⟩))

/-- What the region finds in the converted weight matrices: the conversions of the launched ones. -/
theorem V_main_v0 (c : Dev nD) : V m c main_v0 = (truncf .bf16 (m ((c : Thread nD τ).loc main_arg1) : FVec F S1386x4096 .f32) bitsLt_bf16_f32 : FVec F S1386x4096 .bf16) := by
  show StableHlo.after hostOps0 (fun b => m (c, b)) (Proc.devRef .tc main_v0) = _
  after_results
theorem V_main_v1 (c : Dev nD) : V m c main_v1 = (truncf .bf16 (m ((c : Thread nD τ).loc main_arg3) : FVec F S4096x64 .f32) bitsLt_bf16_f32 : FVec F S4096x64 .bf16) := by
  show StableHlo.after hostOps0 (fun b => m (c, b)) (Proc.devRef .tc main_v1) = _
  after_results

/-- An argument array the pipeline does not stage ends as launched: no later line writes it, the region leaves it, and
    the conversions do not write it. -/
theorem W_of (dats : (p : Fin _) → (c : Dev nD) → Dat τ (Elt F) Unit ℕ (UR sig nD τ) ℕ (cfgs p) c) (c : Dev nD)
    {r : Ref sig .tc} (hr : r ∉ tailWrites) (ha : ∀ w, Pipeline.arrRef spec0 w ≠ r) (h0 : r ≠ main_v0) (h1 : r ≠ main_v1) :
    Pipeline.afterTail₀ cfgs dats 0 (V0 m) tailOps c r = m ((c : Thread nD τ).loc r) := by
  unfold Pipeline.afterTail₀
  rw [tail_keeps _ hr, Pipeline.withArrays_of_ne _ c (V0 m c) _ r ha]
  exact V_of_ne m c h0 h1

end Cert.Kernel.Around

end
-- ==== Proof.BodyBits.lean ====
/-
  The kernel body at one grid point. The body reads a 256-row block of x, the whole converted W1, b1 and the whole
  converted theta, and writes a 256-row block of feat and of xt; each output block is one store through the whole
  block, so what the body leaves in an output buffer is that store's payload, a function of the four input blocks.
-/
import proofs.«100302_j2611340116407_1_alg».proof.Proof.AroundBits
import proofs.«100302_j2611340116407_1_alg».proof.Proof.Gen.Kernel.Skeleton
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether fetched there or not: a window
    not fetched at a point has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each through its whole buffer -/

abbrev r0_0 : Rect S256x1386 := Rect.unit (s := S256x1386) ![0, 0] S256x1386.size inb_S256x1386_S256x1386_0_0
abbrev r0_1 : Rect S1386x4096 := Rect.unit (s := S1386x4096) ![0, 0] S1386x4096.size inb_S1386x4096_S1386x4096_0_0
abbrev r0_2 : Rect S4096 := Rect.unit (s := S4096) ![0] S4096.size inb_S4096_S4096_0
abbrev r0_3 : Rect S4096x64 := Rect.unit (s := S4096x64) ![0, 0] S4096x64.size inb_S4096x64_S4096x64_0_0
abbrev r0_4 : Rect S256x4096 := Rect.unit (s := S256x4096) ![0, 0] S256x4096.size inb_S256x4096_S256x4096_0_0
abbrev r0_5 : Rect S256x64 := Rect.unit (s := S256x64) ![0, 0] S256x64.size inb_S256x64_S256x64_0_0

/-- The feat block the body leaves, from the blocks of x, W1 and b1. -/
def out0_4 (x0 : Vec F S256x1386 .f32) (x1 : Vec F S1386x4096 .bf16) (x2 : Vec F S4096 .f32) : Vec F S256x4096 .f32 :=
  View.canon [⟨r0_4, k0_pay1 (View.ld x0 r0_0) (View.ld x1 r0_1) (View.ld x2 r0_2)⟩]
/-- The xt block the body leaves, from the blocks of x, W1, b1 and theta. -/
def out0_5 (x0 : Vec F S256x1386 .f32) (x1 : Vec F S1386x4096 .bf16) (x2 : Vec F S4096 .f32) (x3 : Vec F S4096x64 .bf16) : Vec F S256x64 .f32 :=
  View.canon [⟨r0_5, k0_pay2 (View.ld x0 r0_0) (View.ld x1 r0_1) (View.ld x2 r0_2) (View.ld x3 r0_3)⟩]

/-- Each output's one store covers its buffer. -/
theorem cover0_4 (p0 : Vec F S256x4096 .f32) (y : S256x4096.Idx) :
    ∃ pc ∈ ([⟨r0_4, p0⟩] : List (View.Piece (Elt F) S256x4096 .f32)), y ∈ pc.1.set :=
  View.cover_of_tiled [⟨r0_4, p0⟩] S256x4096.size (by rfl) y
theorem cover0_5 (p0 : Vec F S256x64 .f32) (y : S256x64.Idx) :
    ∃ pc ∈ ([⟨r0_5, p0⟩] : List (View.Piece (Elt F) S256x64 .f32)), y ∈ pc.1.set :=
  View.cover_of_tiled [⟨r0_5, p0⟩] S256x64.size (by rfl) y

set_option maxHeartbeats 4000000 in
/-- The body on whole staging buffers, the inputs' at contents `x0 … x3` and the outputs' at anything, leaves the inputs'
    as they were and each output's at its block. -/
theorem sound_kernel (c : Dev nD) (E : Set ℕ) (i : grid0.Coords) (arg1 : Memref sig .tc .vmem S256x1386 .f32) (harg1 : arg1.IsWhole) (arg2 : Memref sig .tc .vmem S1386x4096 .bf16) (harg2 : arg2.IsWhole) (arg3 : Memref sig .tc .vmem S4096 .f32) (harg3 : arg3.IsWhole) (arg4 : Memref sig .tc .vmem S4096x64 .bf16) (harg4 : arg4.IsWhole) (arg5 : Memref sig .tc .vmem S256x4096 .f32) (harg5 : arg5.IsWhole) (arg6 : Memref sig .tc .vmem S256x64 .f32) (harg6 : arg6.IsWhole)
    (x0 : Vec F S256x1386 .f32) (x1 : Vec F S1386x4096 .bf16) (x2 : Vec F S4096 .f32) (x3 : Vec F S4096x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2) ∗ owns (c : Thread nD τ) arg6 fullShare (out0_5 x0 x1 x2 x3)) -∗ K ⟨⟩))
      ⊢ wp frame (wpE (defs₀ (F := F)) Variants.none c none) E (cc0__fc_kernel i arg1 harg1 arg2 harg2 arg3 harg3 arg4 harg4 arg5 harg5 arg6 harg6) K := by
  simp only [cc0__fc_kernel_eq_skeleton]; unfold cc0__fc_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The arrays as the region finds them; after the body at point `t` each input's buffer at its block and each
    output's at the block the body computes from the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t)
    | ⟨5, _⟩ => out0_5 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.Kernel.Around

end
-- ==== Proof.RunBits.lean ====
/-
  The run of @main and the frame: every weakly fair execution ends, faults nowhere, and leaves each array the pipeline
  stages at what its blocks' write-backs make of it and every other buffer at what the later host lines leave; the six
  argument arrays end as launched.
-/
import proofs.«100302_j2611340116407_1_alg».proof.Proof.BodyBits

set_option maxRecDepth 16384

noncomputable section

namespace Cert.Kernel.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

set_option backward.isDefEq.respectTransparency.types false in
/-- Every weakly fair execution of @main terminates; each array of the pipeline ends at what the write-backs make of it,
    every other unscoped buffer at what the later lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The six argument arrays after such a run: x and b1, which the pipeline stages as inputs, by the write-backs leaving an
    input array alone; the other four by no later line writing them. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans ((hA c 0).trans (V_of_ne m c (by decide) (by decide)))),
   ((h c).2 main_arg1 (Pipeline.mem_restRefs_of main_arg1 (by decide) (by decide))).trans (W_of m dats c (by decide) (by decide) (by decide) (by decide)),
   ((h c).1 2).trans (((dats 0 c).arrAt_in 2 rfl _).trans ((hA c 2).trans (V_of_ne m c (by decide) (by decide)))),
   ((h c).2 main_arg3 (Pipeline.mem_restRefs_of main_arg3 (by decide) (by decide))).trans (W_of m dats c (by decide) (by decide) (by decide) (by decide)),
   ((h c).2 main_arg4 (Pipeline.mem_restRefs_of main_arg4 (by decide) (by decide))).trans (W_of m dats c (by decide) (by decide) (by decide) (by decide)),
   ((h c).2 main_arg5 (Pipeline.mem_restRefs_of main_arg5 (by decide) (by decide))).trans (W_of m dats c (by decide) (by decide) (by decide) (by decide))⟩

/-- The frame: @main runs to the end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m (dats m) (A_eq m) r h c) (run_main m ρ)

end Cert.Kernel.Around

end
-- ==== Proof.AroundIdeal.lean ====
/-
  @main around its one region: the two host conversions before the launch, the launch, and the seventy host lines
  after it. What the region finds in each buffer is what the two conversions leave (`V`); the later lines write only
  their own result buffers, so the six argument arrays and the six arrays the pipeline stages are not written by them.
-/
import proofs.«100302_j2611340116407_1_alg».proof.Proof.Gen.KernelIdeal.Launch
import proofs.«100302_j2611340116407_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The core's buffer contents when the region is entered: after the two conversions of the weight matrices. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host lines after the region, in order. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The references the later lines write: each line its own result buffer. -/
abbrev tailWrites : List (Ref sig .tc) :=
  [main_v3, main_v4, main_v5, main_v6, main_cst, main_v7, main_cst_0, main_v8, main_v9, main_v10, main_cst_1, main_v11, main_v12, main_cst_2, main_v13, main_v14, main_cst_3, main_call0_v0, main_call0_v1, main_v15, main_cst_4, main_v16, main_v17, main_v18, main_cst_5, main_v19, main_v20, main_cst_6, main_v21, main_v22, main_cst_7, main_call1_v0, main_call1_v1, main_v23, main_c, main_v24, main_v25, main_c_8, main_v26, main_v27, main_v28, main_v29, main_v30, main_cst_9, main_v31, main_v32, main_v33, main_v34, main_v35, main_v36, main_c_10, main_v37, main_v38, main_c_11, main_v39, main_v40, main_v41, main_v42, main_v43, main_cst_12, main_v44, main_v45, main_v46, main_v47, main_v48, main_v49, main_v50, main_v51, main_v52, main_v53]

/-- Every later line writes only a reference of that list. -/
theorem tail_writes_sub : (List.flatten (tailOps : List (List (HloOp τ sig (Elt F))))).Forall fun op =>
    op.writes ⊆ (tailWrites.map (Proc.devRef (τ := τ) .tc)).toFinset := by
  simp only [tailOps, hostOps1, hostOps1_1, hostOps1_2, hostOps1_3, hostOps1_4, List.flatten_cons, List.flatten_nil, List.append_nil,
    List.cons_append, List.nil_append, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A reference no later line writes is, after them, what it was before them. -/
theorem tail_keeps (Vx : Valuation τ sig (Elt F)) {r : Ref sig .tc} (hr : r ∉ tailWrites) :
    StableHlo.after (List.flatten (tailOps : List (List (HloOp τ sig (Elt F))))) Vx (Proc.devRef .tc r) = Vx (Proc.devRef .tc r) :=
  StableHlo.after_of_writes_sub _ Vx tail_writes_sub hr

/-- No later line writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w hmem
  have hop' : op ∈ List.flatten (tailOps : List (List (HloOp τ sig (Elt F)))) := List.mem_flatten.mpr ⟨ops, hops, hop⟩
  obtain ⟨y, hy, he⟩ := List.mem_map.mp (List.mem_toFinset.mp ((List.forall_iff_forall_mem.mp tail_writes_sub) op hop' hmem))
  have : Pipeline.arrRef spec0 w ∈ tailWrites := Proc.devRef_injective _ he ▸ hy
  exact (by decide : ∀ w, Pipeline.arrRef spec0 w ∉ tailWrites) w this

/-- The two conversions write only their own results: every other reference is found as launched. -/
theorem V_of_ne (c : Dev nD) {r : Ref sig .tc} (h0 : r ≠ main_v0) (h1 : r ≠ main_v1) : V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.unary_writes, Finset.mem_singleton]
    exact ⟨StableHlo.devRef_ne_of_ne h0, StableHlo.devRef_ne_of_ne h1⟩))

/-- What the region finds in the converted weight matrices: the conversions of the launched ones. -/
theorem V_main_v0 (c : Dev nD) : V m c main_v0 = (truncf .bf16 (m ((c : Thread nD τ).loc main_arg1) : FVec F S1386x4096 .f32) bitsLt_bf16_f32 : FVec F S1386x4096 .bf16) := by
  show StableHlo.after hostOps0 (fun b => m (c, b)) (Proc.devRef .tc main_v0) = _
  after_results
theorem V_main_v1 (c : Dev nD) : V m c main_v1 = (truncf .bf16 (m ((c : Thread nD τ).loc main_arg3) : FVec F S4096x64 .f32) bitsLt_bf16_f32 : FVec F S4096x64 .bf16) := by
  show StableHlo.after hostOps0 (fun b => m (c, b)) (Proc.devRef .tc main_v1) = _
  after_results

/-- An argument array the pipeline does not stage ends as launched: no later line writes it, the region leaves it, and
    the conversions do not write it. -/
theorem W_of (dats : (p : Fin _) → (c : Dev nD) → Dat τ (Elt F) Unit ℕ (UR sig nD τ) ℕ (cfgs p) c) (c : Dev nD)
    {r : Ref sig .tc} (hr : r ∉ tailWrites) (ha : ∀ w, Pipeline.arrRef spec0 w ≠ r) (h0 : r ≠ main_v0) (h1 : r ≠ main_v1) :
    Pipeline.afterTail₀ cfgs dats 0 (V0 m) tailOps c r = m ((c : Thread nD τ).loc r) := by
  unfold Pipeline.afterTail₀
  rw [tail_keeps _ hr, Pipeline.withArrays_of_ne _ c (V0 m c) _ r ha]
  exact V_of_ne m c h0 h1

end Cert.KernelIdeal.Around

end
-- ==== Proof.BodyIdeal.lean ====
/-
  The kernel body at one grid point. The body reads a 256-row block of x, the whole converted W1, b1 and the whole
  converted theta, and writes a 256-row block of feat and of xt; each output block is one store through the whole
  block, so what the body leaves in an output buffer is that store's payload, a function of the four input blocks.
-/
import proofs.«100302_j2611340116407_1_alg».proof.Proof.AroundIdeal
import proofs.«100302_j2611340116407_1_alg».proof.Proof.Gen.KernelIdeal.Skeleton
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether fetched there or not: a window
    not fetched at a point has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each through its whole buffer -/

abbrev r0_0 : Rect S256x1386 := Rect.unit (s := S256x1386) ![0, 0] S256x1386.size inb_S256x1386_S256x1386_0_0
abbrev r0_1 : Rect S1386x4096 := Rect.unit (s := S1386x4096) ![0, 0] S1386x4096.size inb_S1386x4096_S1386x4096_0_0
abbrev r0_2 : Rect S4096 := Rect.unit (s := S4096) ![0] S4096.size inb_S4096_S4096_0
abbrev r0_3 : Rect S4096x64 := Rect.unit (s := S4096x64) ![0, 0] S4096x64.size inb_S4096x64_S4096x64_0_0
abbrev r0_4 : Rect S256x4096 := Rect.unit (s := S256x4096) ![0, 0] S256x4096.size inb_S256x4096_S256x4096_0_0
abbrev r0_5 : Rect S256x64 := Rect.unit (s := S256x64) ![0, 0] S256x64.size inb_S256x64_S256x64_0_0

/-- The feat block the body leaves, from the blocks of x, W1 and b1. -/
def out0_4 (x0 : Vec F S256x1386 .f32) (x1 : Vec F S1386x4096 .bf16) (x2 : Vec F S4096 .f32) : Vec F S256x4096 .f32 :=
  View.canon [⟨r0_4, k0_pay1 (View.ld x0 r0_0) (View.ld x1 r0_1) (View.ld x2 r0_2)⟩]
/-- The xt block the body leaves, from the blocks of x, W1, b1 and theta. -/
def out0_5 (x0 : Vec F S256x1386 .f32) (x1 : Vec F S1386x4096 .bf16) (x2 : Vec F S4096 .f32) (x3 : Vec F S4096x64 .bf16) : Vec F S256x64 .f32 :=
  View.canon [⟨r0_5, k0_pay2 (View.ld x0 r0_0) (View.ld x1 r0_1) (View.ld x2 r0_2) (View.ld x3 r0_3)⟩]

/-- Each output's one store covers its buffer. -/
theorem cover0_4 (p0 : Vec F S256x4096 .f32) (y : S256x4096.Idx) :
    ∃ pc ∈ ([⟨r0_4, p0⟩] : List (View.Piece (Elt F) S256x4096 .f32)), y ∈ pc.1.set :=
  View.cover_of_tiled [⟨r0_4, p0⟩] S256x4096.size (by rfl) y
theorem cover0_5 (p0 : Vec F S256x64 .f32) (y : S256x64.Idx) :
    ∃ pc ∈ ([⟨r0_5, p0⟩] : List (View.Piece (Elt F) S256x64 .f32)), y ∈ pc.1.set :=
  View.cover_of_tiled [⟨r0_5, p0⟩] S256x64.size (by rfl) y

set_option maxHeartbeats 4000000 in
/-- The body on whole staging buffers, the inputs' at contents `x0 … x3` and the outputs' at anything, leaves the inputs'
    as they were and each output's at its block. -/
theorem sound_kernel (c : Dev nD) (E : Set ℕ) (i : grid0.Coords) (arg1 : Memref sig .tc .vmem S256x1386 .f32) (harg1 : arg1.IsWhole) (arg2 : Memref sig .tc .vmem S1386x4096 .bf16) (harg2 : arg2.IsWhole) (arg3 : Memref sig .tc .vmem S4096 .f32) (harg3 : arg3.IsWhole) (arg4 : Memref sig .tc .vmem S4096x64 .bf16) (harg4 : arg4.IsWhole) (arg5 : Memref sig .tc .vmem S256x4096 .f32) (harg5 : arg5.IsWhole) (arg6 : Memref sig .tc .vmem S256x64 .f32) (harg6 : arg6.IsWhole)
    (x0 : Vec F S256x1386 .f32) (x1 : Vec F S1386x4096 .bf16) (x2 : Vec F S4096 .f32) (x3 : Vec F S4096x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2) ∗ owns (c : Thread nD τ) arg6 fullShare (out0_5 x0 x1 x2 x3)) -∗ K ⟨⟩))
      ⊢ wp frame (wpE (defs₀ (F := F)) Variants.none c none) E (cc0__fc_kernel i arg1 harg1 arg2 harg2 arg3 harg3 arg4 harg4 arg5 harg5 arg6 harg6) K := by
  simp only [cc0__fc_kernel_eq_skeleton]; unfold cc0__fc_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The arrays as the region finds them; after the body at point `t` each input's buffer at its block and each
    output's at the block the body computes from the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t)
    | ⟨5, _⟩ => out0_5 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.KernelIdeal.Around

end
-- ==== Proof.RunIdeal.lean ====
/-
  The run of @main and the frame: every weakly fair execution ends, faults nowhere, and leaves each array the pipeline
  stages at what its blocks' write-backs make of it and every other buffer at what the later host lines leave; the six
  argument arrays end as launched.
-/
import proofs.«100302_j2611340116407_1_alg».proof.Proof.BodyIdeal

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- Every weakly fair execution of @main terminates; each array of the pipeline ends at what the write-backs make of it,
    every other unscoped buffer at what the later lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The six argument arrays after such a run: x and b1, which the pipeline stages as inputs, by the write-backs leaving an
    input array alone; the other four by no later line writing them. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans ((hA c 0).trans (V_of_ne m c (by decide) (by decide)))),
   ((h c).2 main_arg1 (Pipeline.mem_restRefs_of main_arg1 (by decide) (by decide))).trans (W_of m dats c (by decide) (by decide) (by decide) (by decide)),
   ((h c).1 2).trans (((dats 0 c).arrAt_in 2 rfl _).trans ((hA c 2).trans (V_of_ne m c (by decide) (by decide)))),
   ((h c).2 main_arg3 (Pipeline.mem_restRefs_of main_arg3 (by decide) (by decide))).trans (W_of m dats c (by decide) (by decide) (by decide) (by decide)),
   ((h c).2 main_arg4 (Pipeline.mem_restRefs_of main_arg4 (by decide) (by decide))).trans (W_of m dats c (by decide) (by decide) (by decide) (by decide)),
   ((h c).2 main_arg5 (Pipeline.mem_restRefs_of main_arg5 (by decide) (by decide))).trans (W_of m dats c (by decide) (by decide) (by decide) (by decide))⟩

/-- The frame: @main runs to the end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m (dats m) (A_eq m) r h c) (run_main m ρ)

end Cert.KernelIdeal.Around

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.RefTerms.lean ====
/-
  The reference's three results as functions of its arguments.
  feat is max(x · W1 + b1, 0) and xt is feat · theta, both as the host's products over the whole arrays. Everything after
  xt is one function of xt, the incidence table and the bias: with node = table row 0 and edge = table row 1, the degree
  vectors D and B are the scatter-sums of ones along node and along edge, an entry's inverse degree is 1 / degree where
  the degree is positive and 0 elsewhere, m is the scatter-sum along edge of xt's rows gathered at node, scaled by B's
  inverse, hid is the scatter-sum along node of m's rows gathered at edge, scaled by D's inverse, plus the bias, and
  code is tanh of 1 · hid.
-/
import proofs.«100302_j2611340116407_1_alg».proof.Proof.Gen.ReferenceIdeal
import Idealize.ShloMosaic.Lib.ValueIdx
import Idealize.ShloMosaic.Lib.Pipeline.Value
import Idealize.ShloMosaic.PureOps.Ideal.Laws
import proofs.«100302_j2611340116407_1_alg».proof.Proof.LibPlainDot
import Idealize.ShloMosaic.Lib.IdealHost

noncomputable section

namespace Cert.ReferenceIdeal.Tail

open Cert.ReferenceIdeal Cert.ReferenceIdeal.Gen Idealize.ShloMosaic Idealize.ShloMosaic.TcCoe Idealize.ShloMosaic.ValueIdx
open scoped BigOperators

variable {F : FTy → Type} [FloatOps F]

/-- feat = max(x · W1 + b1, 0). -/
def featOf (x : (⟨S8192x1386, .f32⟩ : BufTy).Contents (Elt F)) (w1 : (⟨S1386x4096, .f32⟩ : BufTy).Contents (Elt F))
    (b1 : (⟨S4096, .f32⟩ : BufTy).Contents (Elt F)) : (⟨S8192x4096, .f32⟩ : BufTy).Contents (Elt F) :=
  maximumf (addf (Host.dotGeneral dot_S8192x1386_S1386x4096_S8192x4096_1_0_0_1_n_n none x w1) (broadcastInDim S8192x4096 ![0, 1] bcast_S1x4096_S8192x4096_0_1 (broadcastInDim S1x4096 ![1] bcast_S4096_S1x4096_1 b1))) (broadcastInDim S8192x4096 ![] bcast_S_S8192x4096 (constant S_ .f32 0x00000000#32))

/-- xt = feat · theta. -/
def xtOf (f : (⟨S8192x4096, .f32⟩ : BufTy).Contents (Elt F)) (th : (⟨S4096x64, .f32⟩ : BufTy).Contents (Elt F)) :
    (⟨S8192x64, .f32⟩ : BufTy).Contents (Elt F) :=
  Host.dotGeneral dot_S8192x4096_S4096x64_S8192x64_1_0_0_1_n_n none f th

/-- hid from xt, the incidence table and the bias: the two normalised scatter-sums, then the bias added. -/
def hidOf (xt : (⟨S8192x64, .f32⟩ : BufTy).Contents (Elt F)) (idx : (⟨S2x262144, .i32⟩ : BufTy).Contents (Elt F))
    (bias : (⟨S64, .f32⟩ : BufTy).Contents (Elt F)) : (⟨S8192x64, .f32⟩ : BufTy).Contents (Elt F) :=
  addf (mulf (Host.scatterAdd scatter_S8192x64_S262144x1_S262144x64_1_0_0_1 (broadcastInDim S8192x64 ![] bcast_S_S8192x64 (constant S_ .f32 0x00000000#32)) (broadcastInDim S262144x1 ![0] bcast_S262144_S262144x1_0 (shapeCast _ (extractStridedSlice S1x262144 ![0, 0] idx slices_S2x262144_S1x262144_0_0) shapeCasts_S1x262144_S262144)) (Host.gather gather_S8192x64_S262144x1_S262144x64_1_0_n_n_0_1_164 (mulf (Host.scatterAdd scatter_S8192x64_S262144x1_S262144x64_1_0_0_1 (broadcastInDim S8192x64 ![] bcast_S_S8192x64 (constant S_ .f32 0x00000000#32)) (broadcastInDim S262144x1 ![0] bcast_S262144_S262144x1_0 (shapeCast _ (extractStridedSlice S1x262144 ![1, 0] idx slices_S2x262144_S1x262144_1_0) shapeCasts_S1x262144_S262144)) (Host.gather gather_S8192x64_S262144x1_S262144x64_1_0_n_n_0_1_164 xt (broadcastInDim S262144x1 ![0] bcast_S262144_S262144x1_0 (select (cmpi .slt (shapeCast _ (extractStridedSlice S1x262144 ![0, 0] idx slices_S2x262144_S1x262144_0_0) shapeCasts_S1x262144_S262144) (broadcastInDim S262144 ![] bcast_S_S262144 (constantI S_ 32 0#32))) (addi (shapeCast _ (extractStridedSlice S1x262144 ![0, 0] idx slices_S2x262144_S1x262144_0_0) shapeCasts_S1x262144_S262144) (broadcastInDim S262144 ![] bcast_S_S262144 (constantI S_ 32 8192#32))) (shapeCast _ (extractStridedSlice S1x262144 ![0, 0] idx slices_S2x262144_S1x262144_0_0) shapeCasts_S1x262144_S262144))))) (broadcastInDim S8192x64 ![0, 1] bcast_S8192x1_S8192x64_0_1 (broadcastInDim S8192x1 ![0] bcast_S8192_S8192x1_0 (select (cmpf .ogt (Host.scatterAdd (F := F) scatter_S8192_S262144x1_S262144_n_0_0_1 (broadcastInDim S8192 ![] bcast_S_S8192 (constant S_ .f32 0x00000000#32)) (broadcastInDim S262144x1 ![0] bcast_S262144_S262144x1_0 (shapeCast _ (extractStridedSlice S1x262144 ![1, 0] idx slices_S2x262144_S1x262144_1_0) shapeCasts_S1x262144_S262144)) (broadcastInDim S262144 ![] bcast_S_S262144 (constant S_ .f32 0x3F800000#32))) (broadcastInDim S8192 ![] bcast_S_S8192 (constant S_ .f32 0x00000000#32))) (Host.divf (broadcastInDim S8192 ![] bcast_S_S8192 (constant S_ .f32 0x3F800000#32)) (Host.scatterAdd scatter_S8192_S262144x1_S262144_n_0_0_1 (broadcastInDim S8192 ![] bcast_S_S8192 (constant S_ .f32 0x00000000#32)) (broadcastInDim S262144x1 ![0] bcast_S262144_S262144x1_0 (shapeCast _ (extractStridedSlice S1x262144 ![1, 0] idx slices_S2x262144_S1x262144_1_0) shapeCasts_S1x262144_S262144)) (broadcastInDim S262144 ![] bcast_S_S262144 (constant S_ .f32 0x3F800000#32)))) (broadcastInDim S8192 ![] bcast_S_S8192 (id (constant (F := F) S_ .f32 0x00000000#32))))))) (broadcastInDim S262144x1 ![0] bcast_S262144_S262144x1_0 (select (cmpi .slt (shapeCast _ (extractStridedSlice S1x262144 ![1, 0] idx slices_S2x262144_S1x262144_1_0) shapeCasts_S1x262144_S262144) (broadcastInDim S262144 ![] bcast_S_S262144 (constantI S_ 32 0#32))) (addi (shapeCast _ (extractStridedSlice S1x262144 ![1, 0] idx slices_S2x262144_S1x262144_1_0) shapeCasts_S1x262144_S262144) (broadcastInDim S262144 ![] bcast_S_S262144 (constantI S_ 32 8192#32))) (shapeCast _ (extractStridedSlice S1x262144 ![1, 0] idx slices_S2x262144_S1x262144_1_0) shapeCasts_S1x262144_S262144))))) (broadcastInDim S8192x64 ![0, 1] bcast_S8192x1_S8192x64_0_1 (broadcastInDim S8192x1 ![0] bcast_S8192_S8192x1_0 (select (cmpf .ogt (Host.scatterAdd (F := F) scatter_S8192_S262144x1_S262144_n_0_0_1 (broadcastInDim S8192 ![] bcast_S_S8192 (constant S_ .f32 0x00000000#32)) (broadcastInDim S262144x1 ![0] bcast_S262144_S262144x1_0 (shapeCast _ (extractStridedSlice S1x262144 ![0, 0] idx slices_S2x262144_S1x262144_0_0) shapeCasts_S1x262144_S262144)) (broadcastInDim S262144 ![] bcast_S_S262144 (constant S_ .f32 0x3F800000#32))) (broadcastInDim S8192 ![] bcast_S_S8192 (constant S_ .f32 0x00000000#32))) (Host.divf (broadcastInDim S8192 ![] bcast_S_S8192 (constant S_ .f32 0x3F800000#32)) (Host.scatterAdd scatter_S8192_S262144x1_S262144_n_0_0_1 (broadcastInDim S8192 ![] bcast_S_S8192 (constant S_ .f32 0x00000000#32)) (broadcastInDim S262144x1 ![0] bcast_S262144_S262144x1_0 (shapeCast _ (extractStridedSlice S1x262144 ![0, 0] idx slices_S2x262144_S1x262144_0_0) shapeCasts_S1x262144_S262144)) (broadcastInDim S262144 ![] bcast_S_S262144 (constant S_ .f32 0x3F800000#32)))) (broadcastInDim S8192 ![] bcast_S_S8192 (id (constant (F := F) S_ .f32 0x00000000#32))))))) (broadcastInDim S8192x64 ![0, 1] bcast_S1x64_S8192x64_0_1 (broadcastInDim S1x64 ![1] bcast_S64_S1x64_1 bias))

/-- code = tanh(1 · hid). -/
def codeOf (xt : (⟨S8192x64, .f32⟩ : BufTy).Contents (Elt F)) (idx : (⟨S2x262144, .i32⟩ : BufTy).Contents (Elt F))
    (bias : (⟨S64, .f32⟩ : BufTy).Contents (Elt F)) : (⟨S8192x64, .f32⟩ : BufTy).Contents (Elt F) :=
  Host.tanh (mulf (broadcastInDim S8192x64 ![] bcast_S_S8192x64 (constant S_ .f32 0x3F800000#32)) (hidOf xt idx bias))

/-! ## feat and xt read at an index, at the exact values -/

/-- feat at (p, q): the row of x times the column of W1, plus b1 at q, floored at 0. -/
theorem featOf_apply (x : FVec Ideal S8192x1386 .f32) (w1 : FVec Ideal S1386x4096 .f32) (b1 : FVec Ideal S4096 .f32)
    (p : Fin 8192) (q : Fin 4096) :
    featOf (F := Ideal) x w1 b1 (ix2 p q) = max ((∑ k : Fin 1386, x (ix2 p k) * w1 (ix2 k q)) + b1 (ix1 q)) 0 := by
  unfold featOf
  show max (Host.dotGeneral dot_S8192x1386_S1386x4096_S8192x4096_1_0_0_1_n_n none x w1 (ix2 p q)
      + broadcastInDim S8192x4096 ![0, 1] bcast_S1x4096_S8192x4096_0_1 (broadcastInDim S1x4096 ![1] bcast_S4096_S1x4096_1 b1) (ix2 p q))
      (broadcastInDim S8192x4096 ![] bcast_S_S8192x4096 (constant (F := Ideal) S_ .f32 0x00000000#32) (ix2 p q)) = _
  have e1 : Host.dotGeneral dot_S8192x1386_S1386x4096_S8192x4096_1_0_0_1_n_n none x w1 (ix2 p q)
      = ∑ k : Fin 1386, x (ix2 p k) * w1 (ix2 k q) :=
    Cert.Lib.PlainDot.dotGeneral_apply dot_S8192x1386_S1386x4096_S8192x4096_1_0_0_1_n_n_wf none x w1 p q
  have e2 : broadcastInDim S8192x4096 ![0, 1] bcast_S1x4096_S8192x4096_0_1 (broadcastInDim S1x4096 ![1] bcast_S4096_S1x4096_1 b1) (ix2 p q)
      = b1 (ix1 q) := by
    refine (broadcastInDim_apply _ bcast_S1x4096_S8192x4096_0_1 _ (ix2 p q) (ix2 (0 : Fin 1) q) fun ax => ?_).trans ?_
    · match ax with
      | ⟨0, _⟩ => show (0 : Nat) = if (1 : Nat) = 1 then 0 else p.val; rw [if_pos rfl]
      | ⟨1, _⟩ => show q.val = if (4096 : Nat) = 1 then 0 else q.val; rw [if_neg (by decide)]
    · exact broadcastInDim_apply _ bcast_S4096_S1x4096_1 b1 (ix2 (0 : Fin 1) q) (ix1 q) fun ax => by
        match ax with
        | ⟨0, _⟩ => show q.val = if (4096 : Nat) = 1 then 0 else q.val; rw [if_neg (by decide)]
  have e3 : broadcastInDim S8192x4096 ![] bcast_S_S8192x4096 (constant (F := Ideal) S_ .f32 0x00000000#32) (ix2 p q) = (0 : EReal) := by
    refine (broadcastInDim_apply _ bcast_S_S8192x4096 _ (ix2 p q) ix0 fun ax => ax.elim0).trans ?_
    show Ideal.ofBits .f32 0x00000000#32 = 0
    exact Ideal.ofBits_zero_f32
  rw [e1, e2, e3]

/-- xt at (p, q): the row of feat times the column of theta. -/
theorem xtOf_apply (f : FVec Ideal S8192x4096 .f32) (th : FVec Ideal S4096x64 .f32) (p : Fin 8192) (q : Fin 64) :
    xtOf (F := Ideal) f th (ix2 p q) = ∑ k : Fin 4096, f (ix2 p k) * th (ix2 k q) :=
  Cert.Lib.PlainDot.dotGeneral_apply dot_S8192x4096_S4096x64_S8192x64_1_0_0_1_n_n_wf none f th p q

/-- At the exact values the factor 1 in code = tanh(1 · hid) is the real one, and 1 · y = y on the extended reals. -/
theorem codeOf_eq (xt : (⟨S8192x64, .f32⟩ : BufTy).Contents (Elt Ideal)) (idx : (⟨S2x262144, .i32⟩ : BufTy).Contents (Elt Ideal))
    (bias : (⟨S64, .f32⟩ : BufTy).Contents (Elt Ideal)) :
    codeOf (F := Ideal) xt idx bias = Host.tanh (F := Ideal) (s := S8192x64) (φ := .f32) (hidOf (F := Ideal) xt idx bias) := by
  unfold codeOf
  have h1 : mulf (broadcastInDim S8192x64 ![] bcast_S_S8192x64 (constant (F := Ideal) S_ .f32 0x3F800000#32)) (hidOf (F := Ideal) xt idx bias)
      = hidOf (F := Ideal) xt idx bias := by
    funext i
    show broadcastInDim S8192x64 ![] bcast_S_S8192x64 (constant (F := Ideal) S_ .f32 0x3F800000#32) i * hidOf (F := Ideal) xt idx bias i = _
    rw [broadcastInDim_apply _ bcast_S_S8192x64 _ i ix0 (fun a => a.elim0)]
    show Ideal.ofBits .f32 0x3F800000#32 * _ = _
    rw [Ideal.ofBits_one_f32, one_mul]
  rw [h1]

end Cert.ReferenceIdeal.Tail

end
-- ==== Proof.TailIdeal.lean ====
/-
  The host lines after the region, as one function. The seventy lines compute hid and code from the xt array the
  region wrote, the incidence table and the bias, by the very operations the reference applies to its own xt: so what
  they leave in the hid and code buffers is the reference's function of those three arrays, whatever the other buffers
  hold.
-/
import proofs.«100302_j2611340116407_1_alg».proof.Proof.AroundIdeal
import proofs.«100302_j2611340116407_1_alg».proof.Proof.RefTerms
import Idealize.ShloMosaic.Lib.StableHlo.Run

noncomputable section

namespace Cert.KernelIdeal.Around

open Idealize.ShloMosaic Idealize.ShloMosaic.TcCoe Idealize.SL.Sem Idealize.ShloMosaic.StableHlo
open Cert.KernelIdeal Cert.KernelIdeal.Gen

variable {F : FTy → Type} [FloatOps F]

/-- The later lines in one list, the three operations of each call of where written as plain operations. -/
abbrev tailP : List (HloOp τ sig (Elt F)) :=
  [ StableHlo.unary main_arg5 main_v3 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v3 main_v4 rfl shapeCasts_S1x262144_S262144,
    StableHlo.unary main_arg5 main_v5 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v5 main_v6 rfl shapeCasts_S1x262144_S262144,
    StableHlo.nullary main_cst (constant S_ .f32 0x3F800000#32),
    StableHlo.unary main_cst main_v7 (broadcastInDim S262144 ![] bcast_S_S262144 : (⟨S_, .f32⟩ : BufTy).Contents (Elt F) → (⟨S262144, .f32⟩ : BufTy).Contents (Elt F)),
    StableHlo.nullary main_cst_0 (constant S_ .f32 0x00000000#32),
    StableHlo.unary main_cst_0 main_v8 (broadcastInDim S8192 ![] bcast_S_S8192 : (⟨S_, .f32⟩ : BufTy).Contents (Elt F) → (⟨S8192, .f32⟩ : BufTy).Contents (Elt F)),
    StableHlo.unary main_v4 main_v9 (broadcastInDim S262144x1 ![0] bcast_S262144_S262144x1_0 : (⟨S262144, .i32⟩ : BufTy).Contents (Elt F) → (⟨S262144x1, .i32⟩ : BufTy).Contents (Elt F)),
    StableHlo.ternary main_v8 main_v9 main_v7 main_v10 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.nullary main_cst_1 (constant S_ .f32 0x00000000#32),
    StableHlo.unary main_cst_1 main_v11 (broadcastInDim S8192 ![] bcast_S_S8192 : (⟨S_, .f32⟩ : BufTy).Contents (Elt F) → (⟨S8192, .f32⟩ : BufTy).Contents (Elt F)),
    StableHlo.binary main_v10 main_v11 main_v12 (cmpf .ogt : (⟨S8192, .f32⟩ : BufTy).Contents (Elt F) → (⟨S8192, .f32⟩ : BufTy).Contents (Elt F) → (⟨S8192, .i1⟩ : BufTy).Contents (Elt F)),
    StableHlo.nullary main_cst_2 (constant S_ .f32 0x3F800000#32),
    StableHlo.unary main_cst_2 main_v13 (broadcastInDim S8192 ![] bcast_S_S8192 : (⟨S_, .f32⟩ : BufTy).Contents (Elt F) → (⟨S8192, .f32⟩ : BufTy).Contents (Elt F)),
    StableHlo.binary main_v13 main_v10 main_v14 (Host.divf : (⟨S8192, .f32⟩ : BufTy).Contents (Elt F) → (⟨S8192, .f32⟩ : BufTy).Contents (Elt F) → (⟨S8192, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 ((broadcastInDim S8192 ![] bcast_S_S8192) : (⟨S_, .f32⟩ : BufTy).Contents (Elt F) → (⟨S8192, .f32⟩ : BufTy).Contents (Elt F)),
    StableHlo.ternary main_v12 main_v14 main_call0_v1 main_v15 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    StableHlo.nullary main_cst_4 (constant S_ .f32 0x00000000#32),
    StableHlo.unary main_cst_4 main_v16 (broadcastInDim S8192 ![] bcast_S_S8192 : (⟨S_, .f32⟩ : BufTy).Contents (Elt F) → (⟨S8192, .f32⟩ : BufTy).Contents (Elt F)),
    StableHlo.unary main_v6 main_v17 (broadcastInDim S262144x1 ![0] bcast_S262144_S262144x1_0 : (⟨S262144, .i32⟩ : BufTy).Contents (Elt F) → (⟨S262144x1, .i32⟩ : BufTy).Contents (Elt F)),
    StableHlo.ternary main_v16 main_v17 main_v7 main_v18 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    StableHlo.nullary main_cst_5 (constant S_ .f32 0x00000000#32),
    StableHlo.unary main_cst_5 main_v19 (broadcastInDim S8192 ![] bcast_S_S8192 : (⟨S_, .f32⟩ : BufTy).Contents (Elt F) → (⟨S8192, .f32⟩ : BufTy).Contents (Elt F)),
    StableHlo.binary main_v18 main_v19 main_v20 (cmpf .ogt : (⟨S8192, .f32⟩ : BufTy).Contents (Elt F) → (⟨S8192, .f32⟩ : BufTy).Contents (Elt F) → (⟨S8192, .i1⟩ : BufTy).Contents (Elt F)),
    StableHlo.nullary main_cst_6 (constant S_ .f32 0x3F800000#32),
    StableHlo.unary main_cst_6 main_v21 (broadcastInDim S8192 ![] bcast_S_S8192 : (⟨S_, .f32⟩ : BufTy).Contents (Elt F) → (⟨S8192, .f32⟩ : BufTy).Contents (Elt F)),
    StableHlo.binary main_v21 main_v18 main_v22 (Host.divf : (⟨S8192, .f32⟩ : BufTy).Contents (Elt F) → (⟨S8192, .f32⟩ : BufTy).Contents (Elt F) → (⟨S8192, .f32⟩ : BufTy).Contents (Elt F)),
    StableHlo.nullary main_cst_7 (constant S_ .f32 0x00000000#32),
    StableHlo.unary main_cst_7 main_call1_v0 (id : (⟨S_, .f32⟩ : BufTy).Contents (Elt F) → (⟨S_, .f32⟩ : BufTy).Contents (Elt F)),
    StableHlo.unary main_call1_v0 main_call1_v1 ((broadcastInDim S8192 ![] bcast_S_S8192) : (⟨S_, .f32⟩ : BufTy).Contents (Elt F) → (⟨S8192, .f32⟩ : BufTy).Contents (Elt F)),
    StableHlo.ternary main_v20 main_v22 main_call1_v1 main_v23 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    StableHlo.nullary main_c (constantI S_ 32 0#32),
    StableHlo.unary main_c main_v24 (broadcastInDim S262144 ![] bcast_S_S262144 : (⟨S_, .i32⟩ : BufTy).Contents (Elt F) → (⟨S262144, .i32⟩ : BufTy).Contents (Elt F)),
    StableHlo.binary main_v4 main_v24 main_v25 (cmpi .slt : (⟨S262144, .i32⟩ : BufTy).Contents (Elt F) → (⟨S262144, .i32⟩ : BufTy).Contents (Elt F) → (⟨S262144, .i1⟩ : BufTy).Contents (Elt F)),
    StableHlo.nullary main_c_8 (constantI S_ 32 8192#32),
    StableHlo.unary main_c_8 main_v26 (broadcastInDim S262144 ![] bcast_S_S262144 : (⟨S_, .i32⟩ : BufTy).Contents (Elt F) → (⟨S262144, .i32⟩ : BufTy).Contents (Elt F)),
    StableHlo.binary main_v4 main_v26 main_v27 (addi : (⟨S262144, .i32⟩ : BufTy).Contents (Elt F) → (⟨S262144, .i32⟩ : BufTy).Contents (Elt F) → (⟨S262144, .i32⟩ : BufTy).Contents (Elt F)),
    StableHlo.ternary main_v25 main_v27 main_v4 main_v28 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v28 main_v29 (broadcastInDim S262144x1 ![0] bcast_S262144_S262144x1_0 : (⟨S262144, .i32⟩ : BufTy).Contents (Elt F) → (⟨S262144x1, .i32⟩ : BufTy).Contents (Elt F)),
    StableHlo.binary main_v2_1 main_v29 main_v30 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    StableHlo.nullary main_cst_9 (constant S_ .f32 0x00000000#32),
    StableHlo.unary main_cst_9 main_v31 (broadcastInDim S8192x64 ![] bcast_S_S8192x64 : (⟨S_, .f32⟩ : BufTy).Contents (Elt F) → (⟨S8192x64, .f32⟩ : BufTy).Contents (Elt F)),
    StableHlo.unary main_v6 main_v32 (broadcastInDim S262144x1 ![0] bcast_S262144_S262144x1_0 : (⟨S262144, .i32⟩ : BufTy).Contents (Elt F) → (⟨S262144x1, .i32⟩ : BufTy).Contents (Elt F)),
    StableHlo.ternary main_v31 main_v32 main_v30 main_v33 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    StableHlo.unary main_v23 main_v34 (broadcastInDim S8192x1 ![0] bcast_S8192_S8192x1_0 : (⟨S8192, .f32⟩ : BufTy).Contents (Elt F) → (⟨S8192x1, .f32⟩ : BufTy).Contents (Elt F)),
    StableHlo.unary main_v34 main_v35 (broadcastInDim S8192x64 ![0, 1] bcast_S8192x1_S8192x64_0_1 : (⟨S8192x1, .f32⟩ : BufTy).Contents (Elt F) → (⟨S8192x64, .f32⟩ : BufTy).Contents (Elt F)),
    StableHlo.binary main_v33 main_v35 main_v36 (mulf : (⟨S8192x64, .f32⟩ : BufTy).Contents (Elt F) → (⟨S8192x64, .f32⟩ : BufTy).Contents (Elt F) → (⟨S8192x64, .f32⟩ : BufTy).Contents (Elt F)),
    StableHlo.nullary main_c_10 (constantI S_ 32 0#32),
    StableHlo.unary main_c_10 main_v37 (broadcastInDim S262144 ![] bcast_S_S262144 : (⟨S_, .i32⟩ : BufTy).Contents (Elt F) → (⟨S262144, .i32⟩ : BufTy).Contents (Elt F)),
    StableHlo.binary main_v6 main_v37 main_v38 (cmpi .slt : (⟨S262144, .i32⟩ : BufTy).Contents (Elt F) → (⟨S262144, .i32⟩ : BufTy).Contents (Elt F) → (⟨S262144, .i1⟩ : BufTy).Contents (Elt F)),
    StableHlo.nullary main_c_11 (constantI S_ 32 8192#32),
    StableHlo.unary main_c_11 main_v39 (broadcastInDim S262144 ![] bcast_S_S262144 : (⟨S_, .i32⟩ : BufTy).Contents (Elt F) → (⟨S262144, .i32⟩ : BufTy).Contents (Elt F)),
    StableHlo.binary main_v6 main_v39 main_v40 (addi : (⟨S262144, .i32⟩ : BufTy).Contents (Elt F) → (⟨S262144, .i32⟩ : BufTy).Contents (Elt F) → (⟨S262144, .i32⟩ : BufTy).Contents (Elt F)),
    StableHlo.ternary main_v38 main_v40 main_v6 main_v41 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v41 main_v42 (broadcastInDim S262144x1 ![0] bcast_S262144_S262144x1_0 : (⟨S262144, .i32⟩ : BufTy).Contents (Elt F) → (⟨S262144x1, .i32⟩ : BufTy).Contents (Elt F)),
    StableHlo.binary main_v36 main_v42 main_v43 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    StableHlo.nullary main_cst_12 (constant S_ .f32 0x00000000#32),
    StableHlo.unary main_cst_12 main_v44 (broadcastInDim S8192x64 ![] bcast_S_S8192x64 : (⟨S_, .f32⟩ : BufTy).Contents (Elt F) → (⟨S8192x64, .f32⟩ : BufTy).Contents (Elt F)),
    StableHlo.unary main_v4 main_v45 (broadcastInDim S262144x1 ![0] bcast_S262144_S262144x1_0 : (⟨S262144, .i32⟩ : BufTy).Contents (Elt F) → (⟨S262144x1, .i32⟩ : BufTy).Contents (Elt F)),
    StableHlo.ternary main_v44 main_v45 main_v43 main_v46 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    StableHlo.unary main_v15 main_v47 (broadcastInDim S8192x1 ![0] bcast_S8192_S8192x1_0 : (⟨S8192, .f32⟩ : BufTy).Contents (Elt F) → (⟨S8192x1, .f32⟩ : BufTy).Contents (Elt F)),
    StableHlo.unary main_v47 main_v48 (broadcastInDim S8192x64 ![0, 1] bcast_S8192x1_S8192x64_0_1 : (⟨S8192x1, .f32⟩ : BufTy).Contents (Elt F) → (⟨S8192x64, .f32⟩ : BufTy).Contents (Elt F)),
    StableHlo.binary main_v46 main_v48 main_v49 (mulf : (⟨S8192x64, .f32⟩ : BufTy).Contents (Elt F) → (⟨S8192x64, .f32⟩ : BufTy).Contents (Elt F) → (⟨S8192x64, .f32⟩ : BufTy).Contents (Elt F)),
    StableHlo.unary main_arg4 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S8192x64 ![0, 1] bcast_S1x64_S8192x64_0_1 : (⟨S1x64, .f32⟩ : BufTy).Contents (Elt F) → (⟨S8192x64, .f32⟩ : BufTy).Contents (Elt F)),
    StableHlo.binary main_v49 main_v51 main_v52 (addf : (⟨S8192x64, .f32⟩ : BufTy).Contents (Elt F) → (⟨S8192x64, .f32⟩ : BufTy).Contents (Elt F) → (⟨S8192x64, .f32⟩ : BufTy).Contents (Elt F)),
    StableHlo.unary main_v52 main_v53 (Host.tanh : (⟨S8192x64, .f32⟩ : BufTy).Contents (Elt F) → (⟨S8192x64, .f32⟩ : BufTy).Contents (Elt F)) ]

set_option maxRecDepth 8192 in
/-- It is the stretches' concatenation. -/
theorem tail_flat : List.flatten (tailOps (F := F)) = tailP := rfl

set_option maxRecDepth 8192 in
set_option maxHeartbeats 32400000 in
/-- What the later lines leave in the hid buffer. -/
theorem tail_hid (Vx : Valuation τ sig (Elt F)) :
    StableHlo.after (tailP (F := F)) Vx (Proc.devRef .tc main_v52)
      = Cert.ReferenceIdeal.Tail.hidOf (Vx (Proc.devRef .tc main_v2_1)) (Vx (Proc.devRef .tc main_arg5)) (Vx (Proc.devRef .tc main_arg4)) := by
  after_results_simp <;> rfl <;> (unfold Cert.ReferenceIdeal.Tail.hidOf; rfl)

set_option maxRecDepth 8192 in
set_option maxHeartbeats 32400000 in
/-- What the later lines leave in the code buffer: tanh of hid (the kernel's tanh has no factor 1). -/
theorem tail_code (Vx : Valuation τ sig (Elt F)) :
    StableHlo.after (tailP (F := F)) Vx (Proc.devRef .tc main_v53)
      = Host.tanh (F := F) (s := S8192x64) (φ := .f32) (Cert.ReferenceIdeal.Tail.hidOf (Vx (Proc.devRef .tc main_v2_1)) (Vx (Proc.devRef .tc main_arg5)) (Vx (Proc.devRef .tc main_arg4))) := by
  after_results_simp <;> rfl <;> (unfold Cert.ReferenceIdeal.Tail.hidOf; rfl)

end Cert.KernelIdeal.Around

end
-- ==== Proof.ValueIdeal.lean ====
/-
  The values the idealized kernel's run leaves, at the exact values.
  At grid point t the body reads rows 256 t … 256 t + 255 of x and the whole converted W1, b1 and converted theta (a
  conversion of float format is the identity on exact values), and writes rows 256 t … 256 t + 255 of feat and of xt:
  feat (P, q) = max (sum over k of x (P, k) · W1 (k, q) + b1 q, 0) and xt (P, q) = sum over k of feat (P, k) · theta (k, q),
  which are the host's products read at an index. The 32 blocks tile each array, so after the region the feat array is
  the reference's feat and the xt array the reference's xt; the later host lines then make of xt, the incidence table
  and the bias the reference's hid and code.
-/
import proofs.«100302_j2611340116407_1_alg».proof.Proof.RunIdeal
import proofs.«100302_j2611340116407_1_alg».proof.Proof.TailIdeal
import Idealize.ShloMosaic.Lib.Pipeline.Value
import Idealize.ShloMosaic.Lib.ValueLayout

set_option maxRecDepth 16384

noncomputable section

namespace Cert.KernelIdeal.Around

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

local notation "featR" => Cert.ReferenceIdeal.Tail.featOf (F := Ideal)
local notation "xtR" => Cert.ReferenceIdeal.Tail.xtOf (F := Ideal)
local notation "hidR" => Cert.ReferenceIdeal.Tail.hidOf (F := Ideal)
local notation "codeR" => Cert.ReferenceIdeal.Tail.codeOf (F := Ideal)

/-! ## The two payloads read at an index -/

/-- The feat block at (p, q): the block of x's row p times W1's column q, plus b1 at q, floored at 0. -/
theorem pay1_apply (x0 : FVec Ideal S256x1386 .f32) (x1 : FVec Ideal S1386x4096 .bf16) (x2 : FVec Ideal S4096 .f32)
    (p : Fin 256) (q : Fin 4096) :
    k0_pay1 (F := Ideal) x0 x1 x2 (ix2 p q) = max ((∑ k : Fin 1386, x0 (ix2 p k) * x1 (ix2 k q)) + x2 (ix1 q)) 0 := by
  unfold k0_pay1
  show max (matmul dot_S256x1386_S1386x4096_S256x4096_1_0_0_1_n_n none (truncf .bf16 x0 bitsLt_bf16_f32)
        (shapeCast S1386x4096 x1 shapeCasts_S1386x4096_S1386x4096) (constant S256x4096 .f32 0x00000000#32) (ix2 p q)
      + broadcastTo S256x4096 (shapeCast S1x4096 x2 shapeCasts_S4096_S1x4096) broadcasts_S1x4096_S256x4096 (ix2 p q))
      (broadcast S256x4096 (Scalar.ofBits .f32 0x00000000#32 : Ideal .f32) (ix2 p q)) = _
  have e1 : matmul dot_S256x1386_S1386x4096_S256x4096_1_0_0_1_n_n none (truncf .bf16 x0 bitsLt_bf16_f32)
        (shapeCast S1386x4096 x1 shapeCasts_S1386x4096_S1386x4096) (constant S256x4096 .f32 0x00000000#32) (ix2 p q)
      = ∑ k : Fin 1386, x0 (ix2 p k) * x1 (ix2 k q) := by
    rw [shapeCast_self]
    exact Cert.Lib.PlainDot.matmul_zero_apply dot_S256x1386_S1386x4096_S256x4096_1_0_0_1_n_n_wf none
      (truncf .bf16 x0 bitsLt_bf16_f32) x1 p q
  have e2 : broadcastTo S256x4096 (shapeCast S1x4096 x2 shapeCasts_S4096_S1x4096) broadcasts_S1x4096_S256x4096 (ix2 p q)
      = x2 (ix1 q) :=
    (broadcastTo_1b_ab_apply _ broadcasts_S1x4096_S256x4096 p q).trans (shapeCast_a_1a_apply x2 shapeCasts_S4096_S1x4096 0 q)
  have e3 : broadcast S256x4096 (Scalar.ofBits .f32 0x00000000#32 : Ideal .f32) (ix2 p q) = (0 : EReal) := by
    show Ideal.ofBits .f32 0x00000000#32 = 0
    exact Ideal.ofBits_zero_f32
  rw [e1, e2, e3]

/-- The xt block at (p, q): the feat block's row p times theta's column q. -/
theorem pay2_apply (x0 : FVec Ideal S256x1386 .f32) (x1 : FVec Ideal S1386x4096 .bf16) (x2 : FVec Ideal S4096 .f32)
    (x3 : FVec Ideal S4096x64 .bf16) (p : Fin 256) (q : Fin 64) :
    k0_pay2 (F := Ideal) x0 x1 x2 x3 (ix2 p q) = ∑ k : Fin 4096, k0_pay1 (F := Ideal) x0 x1 x2 (ix2 p k) * x3 (ix2 k q) := by
  unfold k0_pay2
  show matmul dot_S256x4096_S4096x64_S256x64_1_0_0_1_n_n none (truncf .bf16 (k0_pay1 (F := Ideal) x0 x1 x2) bitsLt_bf16_f32)
      (shapeCast S4096x64 x3 shapeCasts_S4096x64_S4096x64) (constant S256x64 .f32 0x00000000#32) (ix2 p q) = _
  rw [shapeCast_self]
  exact Cert.Lib.PlainDot.matmul_zero_apply dot_S256x4096_S4096x64_S256x64_1_0_0_1_n_n_wf none
    (truncf .bf16 (k0_pay1 (F := Ideal) x0 x1 x2) bitsLt_bf16_f32) x3 p q

/-! ## The blocks, read off the arrays -/

variable (m : (ℓ : Loc nD τ sig) → Buf (Elt Ideal) ℓ)

/-- The printed index maps over the grid: x, feat and xt move one block of rows per point, the rest stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := lt_of_lt_of_eq t.isLt (N_0 : cfg0.N = 32)

/-- Row p of x's block at point t is row 256 t + p of x. -/
theorem read0 (c : Dev nD) (t : Fin cfg0.N) (p : Fin 256) (k : Fin 1386) (P : Fin 8192) (hP : P.val = t.val * 256 + p.val) :
    iblk m c 0 t (ix2 p k) = (m ((c : Thread nD τ).loc main_arg0) : FVec Ideal S8192x1386 .f32) (ix2 P k) := by
  show V m c main_arg0 (((cfg0.win 0).blk t).view.emb (ix2 p k)) = _
  rw [V_of_ne m c (by decide) (by decide)]
  refine congrArg _ (funext fun a => Fin.ext ?_)
  obtain ⟨e0, e1, -⟩ := idx_facts t
  match a with
  | ⟨0, _⟩ => show win0_0.index t (0 : Fin 2) * 256 + 1 * p.val = P.val; rw [e0, hP]; omega
  | ⟨1, _⟩ => show win0_0.index t (1 : Fin 2) * 1386 + 1 * k.val = k.val; rw [e1]; omega

/-- The W1 block is the whole of W1 (its conversion is the identity on exact values). -/
theorem read1 (c : Dev nD) (t : Fin cfg0.N) (k : Fin 1386) (q : Fin 4096) :
    iblk m c 1 t (ix2 k q) = (m ((c : Thread nD τ).loc main_arg1) : FVec Ideal S1386x4096 .f32) (ix2 k q) := by
  show V m c main_v0 (((cfg0.win 1).blk t).view.emb (ix2 k q)) = _
  rw [V_main_v0]
  show (m ((c : Thread nD τ).loc main_arg1) : FVec Ideal S1386x4096 .f32) (((cfg0.win 1).blk t).view.emb (ix2 k q)) = _
  refine congrArg _ (funext fun a => Fin.ext ?_)
  obtain ⟨-, -, e0, e1, -⟩ := idx_facts t
  match a with
  | ⟨0, _⟩ => show win0_1.index t (0 : Fin 2) * 1386 + 1 * k.val = k.val; rw [e0]; omega
  | ⟨1, _⟩ => show win0_1.index t (1 : Fin 2) * 4096 + 1 * q.val = q.val; rw [e1]; omega

/-- The b1 block is the whole of b1. -/
theorem read2 (c : Dev nD) (t : Fin cfg0.N) (q : Fin 4096) :
    iblk m c 2 t (ix1 q) = (m ((c : Thread nD τ).loc main_arg2) : FVec Ideal S4096 .f32) (ix1 q) := by
  show V m c main_arg2 (((cfg0.win 2).blk t).view.emb (ix1 q)) = _
  rw [V_of_ne m c (by decide) (by decide)]
  refine congrArg _ (funext fun a => Fin.ext ?_)
  obtain ⟨-, -, -, -, e0, -⟩ := idx_facts t
  match a with
  | ⟨0, _⟩ => show win0_2.index t (0 : Fin 1) * 4096 + 1 * q.val = q.val; rw [e0]; omega

/-- The theta block is the whole of theta. -/
theorem read3 (c : Dev nD) (t : Fin cfg0.N) (k : Fin 4096) (q : Fin 64) :
    iblk m c 3 t (ix2 k q) = (m ((c : Thread nD τ).loc main_arg3) : FVec Ideal S4096x64 .f32) (ix2 k q) := by
  show V m c main_v1 (((cfg0.win 3).blk t).view.emb (ix2 k q)) = _
  rw [V_main_v1]
  show (m ((c : Thread nD τ).loc main_arg3) : FVec Ideal S4096x64 .f32) (((cfg0.win 3).blk t).view.emb (ix2 k q)) = _
  refine congrArg _ (funext fun a => Fin.ext ?_)
  obtain ⟨-, -, -, -, -, e0, e1, -⟩ := idx_facts t
  match a with
  | ⟨0, _⟩ => show win0_3.index t (0 : Fin 2) * 4096 + 1 * k.val = k.val; rw [e0]; omega
  | ⟨1, _⟩ => show win0_3.index t (1 : Fin 2) * 64 + 1 * q.val = q.val; rw [e1]; omega

/-- Entry (p, q) of feat's block at point t sits at (256 t + p, q) of feat. -/
theorem emb4 (t : Fin cfg0.N) (p : Fin 256) (q : Fin 4096) (P : Fin 8192) (hP : P.val = t.val * 256 + p.val) :
    ((cfg0.win 4).blk t).view.emb (ix2 p q) = (ix2 P q : S8192x4096.Idx) := by
  refine funext fun a => Fin.ext ?_
  obtain ⟨-, -, -, -, -, -, -, e0, e1, -⟩ := idx_facts t
  match a with
  | ⟨0, _⟩ => show win0_4.index t (0 : Fin 2) * 256 + 1 * p.val = P.val; rw [e0, hP]; omega
  | ⟨1, _⟩ => show win0_4.index t (1 : Fin 2) * 4096 + 1 * q.val = q.val; rw [e1]; omega

/-- Entry (p, q) of xt's block at point t sits at (256 t + p, q) of xt. -/
theorem emb5 (t : Fin cfg0.N) (p : Fin 256) (q : Fin 64) (P : Fin 8192) (hP : P.val = t.val * 256 + p.val) :
    ((cfg0.win 5).blk t).view.emb (ix2 p q) = (ix2 P q : S8192x64.Idx) := by
  refine funext fun a => Fin.ext ?_
  obtain ⟨-, -, -, -, -, -, -, -, -, e0, e1⟩ := idx_facts t
  match a with
  | ⟨0, _⟩ => show win0_5.index t (0 : Fin 2) * 256 + 1 * p.val = P.val; rw [e0, hP]; omega
  | ⟨1, _⟩ => show win0_5.index t (1 : Fin 2) * 64 + 1 * q.val = q.val; rw [e1]; omega

/-- The feat block of point t at (p, q) is the reference's feat at (256 t + p, q). -/
theorem pay1_blocks (c : Dev nD) (t : Fin cfg0.N) (p : Fin 256) (q : Fin 4096) (P : Fin 8192) (hP : P.val = t.val * 256 + p.val) :
    k0_pay1 (F := Ideal) (iblk m c 0 t) (iblk m c 1 t) (iblk m c 2 t) (ix2 p q)
      = featR (m ((c : Thread nD τ).loc main_arg0)) (m ((c : Thread nD τ).loc main_arg1)) (m ((c : Thread nD τ).loc main_arg2)) (ix2 P q) := by
  refine (pay1_apply (iblk m c 0 t) (iblk m c 1 t) (iblk m c 2 t) p q).trans ?_
  refine Eq.trans ?_ (Cert.ReferenceIdeal.Tail.featOf_apply (m ((c : Thread nD τ).loc main_arg0)) (m ((c : Thread nD τ).loc main_arg1)) (m ((c : Thread nD τ).loc main_arg2)) P q).symm
  simp only [read0 m c t p _ P hP, read1 m c t _ q, read2 m c t q]

/-- The xt block of point t at (p, q) is the reference's xt at (256 t + p, q). -/
theorem pay2_blocks (c : Dev nD) (t : Fin cfg0.N) (p : Fin 256) (q : Fin 64) (P : Fin 8192) (hP : P.val = t.val * 256 + p.val) :
    k0_pay2 (F := Ideal) (iblk m c 0 t) (iblk m c 1 t) (iblk m c 2 t) (iblk m c 3 t) (ix2 p q)
      = xtR (featR (m ((c : Thread nD τ).loc main_arg0)) (m ((c : Thread nD τ).loc main_arg1)) (m ((c : Thread nD τ).loc main_arg2))) (m ((c : Thread nD τ).loc main_arg3)) (ix2 P q) := by
  refine (pay2_apply (iblk m c 0 t) (iblk m c 1 t) (iblk m c 2 t) (iblk m c 3 t) p q).trans ?_
  refine Eq.trans ?_ (Cert.ReferenceIdeal.Tail.xtOf_apply _ (m ((c : Thread nD τ).loc main_arg3)) P q).symm
  exact Finset.sum_congr rfl fun k _ => by rw [pay1_blocks m c t p k P hP, read3 m c t k q]

/-! ## From the blocks to the arrays -/

theorem hz2 : (![0, 0] : Fin 2 → Nat) = fun _ => 0 := funext fun a => by fin_cases a <;> rfl
theorem hz1 : (![0] : Fin 1 → Nat) = fun _ => 0 := funext fun a => by fin_cases a <;> rfl

/-- What point t writes back into feat is block t of the reference's feat. -/
theorem flushed4_eq (c : Dev nD) (t : Fin cfg0.N) :
    (dats m 0 c).flushed 4 t = ((cfg0.win 4).blk t).view.read (Elt Ideal)
      (featR (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz2]
  simp only [View.ld_unit_zero (S := S256x1386) hz2, View.ld_unit_zero (S := S1386x4096) hz2, View.ld_unit_zero (S := S4096) hz1]
  refine funext fun j => ?_
  obtain ⟨p, q, rfl⟩ : ∃ (p : Fin 256) (q : Fin 4096), j = ix2 p q := ⟨j 0, j 1, eq_ix2 j⟩
  have hN := t_lt t
  have hp := p.isLt
  show k0_pay1 (F := Ideal) (iblk m c 0 t) (iblk m c 1 t) (iblk m c 2 t) (ix2 p q)
    = featR (m ((c : Thread nD τ).loc main_arg0)) (m ((c : Thread nD τ).loc main_arg1)) (m ((c : Thread nD τ).loc main_arg2)) (((cfg0.win 4).blk t).view.emb (ix2 p q))
  rw [emb4 t p q ⟨t.val * 256 + p.val, by omega⟩ rfl]
  exact pay1_blocks m c t p q ⟨t.val * 256 + p.val, by omega⟩ rfl

/-- What point t writes back into xt is block t of the reference's xt. -/
theorem flushed5_eq (c : Dev nD) (t : Fin cfg0.N) :
    (dats m 0 c).flushed 5 t = ((cfg0.win 5).blk t).view.read (Elt Ideal)
      (xtR (featR (m ((c : Thread nD τ).loc main_arg0)) (m ((c : Thread nD τ).loc main_arg1)) (m ((c : Thread nD τ).loc main_arg2))) (m ((c : Thread nD τ).loc main_arg3))) := by
  show (cfg0.win 5).cut (grid0.coords t) ((dats m 0 c).after 5 t) = _
  rw [after0_5]
  unfold out0_5
  rw [View.canon_unit_zero hz2]
  simp only [View.ld_unit_zero (S := S256x1386) hz2, View.ld_unit_zero (S := S1386x4096) hz2, View.ld_unit_zero (S := S4096) hz1, View.ld_unit_zero (S := S4096x64) hz2]
  refine funext fun j => ?_
  obtain ⟨p, q, rfl⟩ : ∃ (p : Fin 256) (q : Fin 64), j = ix2 p q := ⟨j 0, j 1, eq_ix2 j⟩
  have hN := t_lt t
  have hp := p.isLt
  show k0_pay2 (F := Ideal) (iblk m c 0 t) (iblk m c 1 t) (iblk m c 2 t) (iblk m c 3 t) (ix2 p q)
    = xtR (featR (m ((c : Thread nD τ).loc main_arg0)) (m ((c : Thread nD τ).loc main_arg1)) (m ((c : Thread nD τ).loc main_arg2))) (m ((c : Thread nD τ).loc main_arg3)) (((cfg0.win 5).blk t).view.emb (ix2 p q))
  rw [emb5 t p q ⟨t.val * 256 + p.val, by omega⟩ rfl]
  exact pay2_blocks m c t p q ⟨t.val * 256 + p.val, by omega⟩ rfl

/-- An index of feat is in point t's block iff each coordinate is in the block's range. -/
theorem mem_blk4 (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v2_0).slice (win0_4.rect t)).set ↔ _
  rw [View.set_slice_whole, Rect.mem_set_unit]
  exact Iff.rfl
theorem mem_blk5 (t : Fin cfg0.N) (i : S8192x64.Idx) :
    i ∈ ((cfg0.win 5).blk t).view.set ↔ ∀ a : Fin 2, win0_5.index t a * S256x64.size a ≤ (i a).val ∧ (i a).val < win0_5.index t a * S256x64.size a + S256x64.size a := by
  show i ∈ ((View.whole main_v2_1).slice (win0_5.rect t)).set ↔ _
  rw [View.set_slice_whole, Rect.mem_set_unit]
  exact Iff.rfl

/-- Row r of feat is covered by the point r / 256. -/
theorem cover4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hlt : (i 0).val / 256 < cfg0.N := by rw [show cfg0.N = 32 from N_0]; omega
  refine ⟨⟨(i 0).val / 256, hlt⟩, flush0_4 _, ?_⟩
  rw [mem_blk4]
  obtain ⟨-, -, -, -, -, -, -, e0, e1, -⟩ := idx_facts ⟨(i 0).val / 256, hlt⟩
  intro a
  match a with
  | ⟨0, _⟩ =>
    show win0_4.index ⟨(i 0).val / 256, hlt⟩ (0 : Fin 2) * 256 ≤ (i 0).val ∧ (i 0).val < win0_4.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, hlt⟩ (1 : Fin 2) * 4096 ≤ (i 1).val ∧ (i 1).val < win0_4.index ⟨(i 0).val / 256, hlt⟩ (1 : Fin 2) * 4096 + 4096
    rw [e1]; omega

/-- Row r of xt is covered by the point r / 256. -/
theorem cover5 (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  have hlt : (i 0).val / 256 < cfg0.N := by rw [show cfg0.N = 32 from N_0]; omega
  refine ⟨⟨(i 0).val / 256, hlt⟩, flush0_5 _, ?_⟩
  rw [mem_blk5]
  obtain ⟨-, -, -, -, -, -, -, -, -, e0, e1⟩ := idx_facts ⟨(i 0).val / 256, hlt⟩
  intro a
  match a with
  | ⟨0, _⟩ =>
    show win0_5.index ⟨(i 0).val / 256, hlt⟩ (0 : Fin 2) * 256 ≤ (i 0).val ∧ (i 0).val < win0_5.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, hlt⟩ (1 : Fin 2) * 64 ≤ (i 1).val ∧ (i 1).val < win0_5.index ⟨(i 0).val / 256, hlt⟩ (1 : Fin 2) * 64 + 64
    rw [e1]; omega

/-- After the region the feat array is the reference's feat of the arguments. -/
theorem final4 (c : Dev nD) : (dats m 0 c).arrAt 4 cfg0.N
    = featR (m ((c : Thread nD τ).loc main_arg0)) (m ((c : Thread nD τ).loc main_arg1)) (m ((c : Thread nD τ).loc main_arg2)) :=
  (dats m 0 c).arrAt_eq_of_cover 4 _ (fun t _ => flushed4_eq m c t) cover4

/-- After the region the xt array is the reference's xt of the arguments. -/
theorem final5 (c : Dev nD) : (dats m 0 c).arrAt 5 cfg0.N
    = xtR (featR (m ((c : Thread nD τ).loc main_arg0)) (m ((c : Thread nD τ).loc main_arg1)) (m ((c : Thread nD τ).loc main_arg2))) (m ((c : Thread nD τ).loc main_arg3)) :=
  (dats m 0 c).arrAt_eq_of_cover 5 _ (fun t _ => flushed5_eq m c t) cover5

/-! ## The later lines' results -/

/-- What the later lines read: the xt array the region wrote, and the incidence table and the bias as launched. -/
theorem exit_xt (c : Dev nD) : Pipeline.withArrays spec0 c (V0 m c) (fun w => (dats m 0 c).arrAt w cfg0.N) (Proc.devRef .tc main_v2_1)
    = xtR (featR (m ((c : Thread nD τ).loc main_arg0)) (m ((c : Thread nD τ).loc main_arg1)) (m ((c : Thread nD τ).loc main_arg2))) (m ((c : Thread nD τ).loc main_arg3)) :=
  (Pipeline.withArrays_arr spec0 launch0.win.arr_inj c (V0 m c) (fun w => (dats m 0 c).arrAt w cfg0.N) 5).trans (final5 m c)
theorem exit_arg5 (c : Dev nD) : Pipeline.withArrays spec0 c (V0 m c) (fun w => (dats m 0 c).arrAt w cfg0.N) (Proc.devRef .tc main_arg5)
    = m ((c : Thread nD τ).loc main_arg5) :=
  (Pipeline.withArrays_of_ne spec0 c (V0 m c) _ main_arg5 (by decide)).trans (V_of_ne m c (by decide) (by decide))
theorem exit_arg4 (c : Dev nD) : Pipeline.withArrays spec0 c (V0 m c) (fun w => (dats m 0 c).arrAt w cfg0.N) (Proc.devRef .tc main_arg4)
    = m ((c : Thread nD τ).loc main_arg4) :=
  (Pipeline.withArrays_of_ne spec0 c (V0 m c) _ main_arg4 (by decide)).trans (V_of_ne m c (by decide) (by decide))

/-- hid at equal arguments. -/
theorem hid_congr {xt xt' : (⟨Cert.ReferenceIdeal.S8192x64, .f32⟩ : BufTy).Contents (Elt Ideal)}
    {idx idx' : (⟨Cert.ReferenceIdeal.S2x262144, .i32⟩ : BufTy).Contents (Elt Ideal)}
    {bias bias' : (⟨Cert.ReferenceIdeal.S64, .f32⟩ : BufTy).Contents (Elt Ideal)}
    (h1 : xt = xt') (h2 : idx = idx') (h3 : bias = bias') : hidR xt idx bias = hidR xt' idx' bias' := by
  subst h1 h2 h3; rfl

/-- The hid buffer after the later lines: the reference's hid of the arguments. -/
theorem after_hid (c : Dev nD) : Pipeline.afterTail₀ cfgs (dats m) 0 (V0 m) tailOps c main_v52
    = hidR (xtR (featR (m ((c : Thread nD τ).loc main_arg0)) (m ((c : Thread nD τ).loc main_arg1)) (m ((c : Thread nD τ).loc main_arg2))) (m ((c : Thread nD τ).loc main_arg3)))
        (m ((c : Thread nD τ).loc main_arg5)) (m ((c : Thread nD τ).loc main_arg4)) := by
  unfold Pipeline.afterTail₀
  rw [tail_flat]
  refine (tail_hid _).trans ?_
  exact hid_congr (exit_xt m c) (exit_arg5 m c) (exit_arg4 m c)

/-- The code buffer after the later lines: the reference's code of the arguments. -/
theorem after_code (c : Dev nD) : Pipeline.afterTail₀ cfgs (dats m) 0 (V0 m) tailOps c main_v53
    = codeR (xtR (featR (m ((c : Thread nD τ).loc main_arg0)) (m ((c : Thread nD τ).loc main_arg1)) (m ((c : Thread nD τ).loc main_arg2))) (m ((c : Thread nD τ).loc main_arg3)))
        (m ((c : Thread nD τ).loc main_arg5)) (m ((c : Thread nD τ).loc main_arg4)) := by
  unfold Pipeline.afterTail₀
  rw [tail_flat]
  refine (tail_code _).trans ?_
  refine Eq.trans ?_ (Cert.ReferenceIdeal.Tail.codeOf_eq _ _ _).symm
  exact congrArg (Host.tanh (F := Ideal) (s := Cert.ReferenceIdeal.S8192x64) (φ := .f32)) (hid_congr (exit_xt m c) (exit_arg5 m c) (exit_arg4 m c))

/-! ## The run, read -/

/-- Every weakly fair execution of the idealized kernel terminates with feat, hid and code at the reference's functions
    of the arguments, and the arguments unchanged. -/
theorem value_run (ρ : Dev nD → PrngReg) :
    θ_run defs (onTc (τ := τ) (main (F := Ideal))) ⟨m, fun _ => 0, ρ⟩ fun r => ∀ c : Dev nD,
      r.2.mem ((c.tc : Thread nD τ).loc main_v2_0) = featR (m ((c : Thread nD τ).loc main_arg0)) (m ((c : Thread nD τ).loc main_arg1)) (m ((c : Thread nD τ).loc main_arg2))
      ∧ r.2.mem ((c.tc : Thread nD τ).loc main_v52) = hidR (xtR (featR (m ((c : Thread nD τ).loc main_arg0)) (m ((c : Thread nD τ).loc main_arg1)) (m ((c : Thread nD τ).loc main_arg2))) (m ((c : Thread nD τ).loc main_arg3))) (m ((c : Thread nD τ).loc main_arg5)) (m ((c : Thread nD τ).loc main_arg4))
      ∧ r.2.mem ((c.tc : Thread nD τ).loc main_v53) = codeR (xtR (featR (m ((c : Thread nD τ).loc main_arg0)) (m ((c : Thread nD τ).loc main_arg1)) (m ((c : Thread nD τ).loc main_arg2))) (m ((c : Thread nD τ).loc main_arg3))) (m ((c : Thread nD τ).loc main_arg5)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 4).trans (final4 m c),
      ((h c).2 main_v52 (Pipeline.mem_restRefs_of main_v52 (by decide) (by decide))).trans (after_hid m c),
      ((h c).2 main_v53 (Pipeline.mem_restRefs_of main_v53 (by decide) (by decide))).trans (after_code m c),
      args_kept m (dats m) (A_eq m) r h c⟩)
    (run_main m ρ)

end Cert.KernelIdeal.Around

end
-- ==== Proof.lean ====
/-
  The kernel computes feat = max(x · W1 + b1, 0) and xt = feat · theta block of rows by block of rows (the bf16 rounding of
  the operands is the identity on exact values, and a product into a zero accumulator is the host's product), and then
  applies to xt the same host lines as the reference (two normalised scatter-sums over the incidence table, the bias,
  tanh). So at the exact values feat, hid and code are the reference's: the matrix products agree index by index as sums
  over the contracted axis, the later lines are one function of xt, and the reference's extra factor 1 under the tanh is
  the unit of the extended reals' product. No law used needs the inputs finite.
-/
import proofs.«100302_j2611340116407_1_alg».proof.Defs
import proofs.«100302_j2611340116407_1_alg».proof.Proof.Gen.Kernel
import proofs.«100302_j2611340116407_1_alg».proof.Proof.Gen.KernelIdeal
import proofs.«100302_j2611340116407_1_alg».proof.Proof.Gen.ReferenceIdeal
import proofs.«100302_j2611340116407_1_alg».proof.Proof.Gen.Pre_finite_inputs
import proofs.«100302_j2611340116407_1_alg».proof.Proof.RunBits
import proofs.«100302_j2611340116407_1_alg».proof.Proof.ValueIdeal
import proofs.«100302_j2611340116407_1_alg».proof.Proof.RefRunP

noncomputable section

namespace Cert.Proof

open Idealize.ShloMosaic Idealize.SL.Sem

/-- The word-level kernel runs to the end and leaves its arguments. -/
theorem frame_k : Cert.frame_Kernel := fun m ρ _ => Cert.Kernel.Around.frame m ρ

/-- So does the idealized kernel. -/
theorem frame_ki : Cert.frame_KernelIdeal := fun m ρ _ => Cert.KernelIdeal.Around.frame m ρ

/-- The reference is host operations only: its run, the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The ideal pass rewrote nothing. -/
theorem preserves : Cert.preserves_Kernel_KernelIdeal := trivial

/-- Both programs end with feat, hid and code at the same functions of the arguments. -/
theorem algebraic : Cert.algebraic_KernelIdeal_ReferenceIdeal := by
  intro m ρ m' ρ' _ hagree
  refine ⟨_, _, _, Cert.KernelIdeal.Around.value_run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.ValueP.run (F := Ideal) m' ρ')
  · rw [(hagree c).1, (hagree c).2.1, (hagree c).2.2.1]
    rfl
  · unfold Cert.ReferenceIdeal.ValueP.res_main_v55
    rw [(hagree c).1, (hagree c).2.1, (hagree c).2.2.1, (hagree c).2.2.2.1, (hagree c).2.2.2.2.1, (hagree c).2.2.2.2.2]
    unfold Cert.ReferenceIdeal.Tail.hidOf Cert.ReferenceIdeal.Tail.xtOf Cert.ReferenceIdeal.Tail.featOf
    rfl
  · unfold Cert.ReferenceIdeal.ValueP.res_main_v58
    rw [(hagree c).1, (hagree c).2.1, (hagree c).2.2.1, (hagree c).2.2.2.1, (hagree c).2.2.2.2.1, (hagree c).2.2.2.2.2]
    unfold Cert.ReferenceIdeal.Tail.codeOf Cert.ReferenceIdeal.Tail.hidOf Cert.ReferenceIdeal.Tail.xtOf Cert.ReferenceIdeal.Tail.featOf
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
